-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S128x256 : S_.BroadcastsInDim S128x256 (![] : Fin 0 → Fin S128x256.rank)
  reducesTo_S128x256_S_d0_1 : S128x256.ReducesTo [0, 1] S_

variable [Facts]

def fn_part5 {F : FTy → Type} [FloatOps F] (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  main_v88

def fn_part4 {F : FTy → Type} [FloatOps F] (main_arg14 : FVec F S1024 .f32) (main_arg15 : FVec F S1024x2048 .f32) (main_arg16 : FVec F S2048 .f32) (main_arg17 : FVec F S128x256 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x2048 .f32 := Host.absf main_arg15
  let main_cst_28 : FVec F S_ .f32 := constant S_ .f32 0x7F800000#32
  let main_v75 : FVec F S1024x2048 .f32 := broadcastInDim S1024x2048 ![] bcast_S_S1024x2048 main_cst_28
  let main_v76 : IVec S1024x2048 1 := cmpf .olt main_v74 main_v75
  let main_c_29 : IVec S_ 1 := constantI S_ 1 1#1
  let main_v77 : IVec S_ 1 := (fun x v => Host.reduce IntOp.andi x v reducesTo_S1024x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v33 : IVec S_ 1) : IVec S_ 1 :=
  let main_v34 : FVec F S2048x128 .f32 := Host.absf main_arg7
  let main_cst_12 : FVec F S_ .f32 := constant S_ .f32 0x7F800000#32
  let main_v35 : FVec F S2048x128 .f32 := broadcastInDim S2048x128 ![] bcast_S_S2048x128 main_cst_12
  let main_v36 : IVec S2048x128 1 := cmpf .olt main_v34 main_v35
  let main_c_13 : IVec S_ 1 := constantI S_ 1 1#1
  let main_v37 : IVec S_ 1 := (fun x v => Host.reduce IntOp.andi x v reducesTo_S2048x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2048 .f32 := Host.absf main_arg9
  let main_cst_16 : FVec F S_ .f32 := constant S_ .f32 0x7F800000#32
  let main_v45 : FVec F S128x2048 .f32 := broadcastInDim S128x2048 ![] bcast_S_S128x2048 main_cst_16
  let main_v46 : IVec S128x2048 1 := cmpf .olt main_v44 main_v45
  let main_c_17 : IVec S_ 1 := constantI S_ 1 1#1
  let main_v47 : IVec S_ 1 := (fun x v => Host.reduce IntOp.andi x v reducesTo_S128x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024x2048 .f32) (main_arg6 : FVec F S2048 .f32) (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x2048 .f32) (main_arg1 : FVec F S2048x1024 .f32) (main_arg2 : FVec F S1024 .f32) (main_arg3 : FVec F S1024x1024 .f32) (main_arg4 : FVec F S1024 .f32) (main_arg5 : FVec F S1024x2048 .f32) (main_arg6 : FVec F S2048 .f32) (main_arg7 : FVec F S2048x128 .f32) (main_arg8 : FVec F S128 .f32) (main_arg9 : FVec F S128x2048 .f32) (main_arg10 : FVec F S2048 .f32) (main_arg11 : FVec F S2048x1024 .f32) (main_arg12 : FVec F S1024 .f32) (main_arg13 : FVec F S1024x1024 .f32) (main_arg14 : FVec F S1024 .f32) (main_arg15 : FVec F S1024x2048 .f32) (main_arg16 : FVec F S2048 .f32) (main_arg17 : FVec F S128x256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S1x1024 : Shape := ⟨2, ![1, 1024]⟩
abbrev S1x2048 : Shape := ⟨2, ![1, 2048]⟩
abbrev S1x128 : Shape := ⟨2, ![1, 128]⟩
abbrev S256 : Shape := ⟨1, ![256]⟩
abbrev S_ : Shape := ⟨0, ![]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S16384x32 : Shape := ⟨2, ![16384, 32]⟩
abbrev S16384x128 : Shape := ⟨2, ![16384, 128]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩

abbrev nBuf : Space → Nat
  | .hbm => 65
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S2048x128, .f32⟩
  | .hbm, ⟨8, _⟩ => ⟨S128, .f32⟩
  | .hbm, ⟨9, _⟩ => ⟨S128x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x2048, .f32⟩
  | .hbm, ⟨16, _⟩ => ⟨S2048, .f32⟩
  | .hbm, ⟨17, _⟩ => ⟨S128x256, .f32⟩
  | .hbm, ⟨18, _⟩ => ⟨S16384x2048, .bf16⟩
  | .hbm, ⟨19, _⟩ => ⟨S2048x1024, .bf16⟩
  | .hbm, ⟨20, _⟩ => ⟨S1024x1024, .bf16⟩
  | .hbm, ⟨21, _⟩ => ⟨S1024x2048, .bf16⟩
  | .hbm, ⟨22, _⟩ => ⟨S2048x128, .bf16⟩
  | .hbm, ⟨23, _⟩ => ⟨S128x2048, .bf16⟩
  | .hbm, ⟨24, _⟩ => ⟨S2048x1024, .bf16⟩
  | .hbm, ⟨25, _⟩ => ⟨S1024x1024, .bf16⟩
  | .hbm, ⟨26, _⟩ => ⟨S1024x2048, .bf16⟩
  | .hbm, ⟨27, _⟩ => ⟨S128x256, .bf16⟩
  | .hbm, ⟨28, _⟩ => ⟨S1x1024, .f32⟩
  | .hbm, ⟨29, _⟩ => ⟨S1x1024, .f32⟩
  | .hbm, ⟨30, _⟩ => ⟨S1x2048, .f32⟩
  | .hbm, ⟨31, _⟩ => ⟨S1x128, .f32⟩
  | .hbm, ⟨32, _⟩ => ⟨S1x2048, .f32⟩
  | .hbm, ⟨33, _⟩ => ⟨S1x1024, .f32⟩
  | .hbm, ⟨34, _⟩ => ⟨S1x1024, .f32⟩
  | .hbm, ⟨35, _⟩ => ⟨S1x2048, .f32⟩
  | .hbm, ⟨36, _⟩ => ⟨S256, .i32⟩
  | .hbm, ⟨37, _⟩ => ⟨S_, .i32⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S32, .i32⟩
  | .hbm, ⟨56, _⟩ => ⟨S256x1, .i32⟩
  | .hbm, ⟨57, _⟩ => ⟨S1x32, .i32⟩
  | .hbm, ⟨58, _⟩ => ⟨S256x32, .i32⟩
  | .hbm, ⟨59, _⟩ => ⟨S256x32, .i32⟩
  | .hbm, ⟨60, _⟩ => ⟨S256x32, .i1⟩
  | .hbm, ⟨61, _⟩ => ⟨S256x32, .f32⟩
  | .hbm, ⟨62, _⟩ => ⟨S16384x2048, .f32⟩
  | .hbm, ⟨63, _⟩ => ⟨S16384x32, .f32⟩
  | .hbm, ⟨64, _⟩ => ⟨S16384x128, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S128x2048, .bf16⟩
  | .local _ .vmem, ⟨11, _⟩ => ⟨S1x2048, .f32⟩
  | .local _ .vmem, ⟨12, _⟩ => ⟨S2048x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1024x2048, .bf16⟩
  | .local _ .vmem, ⟨17, _⟩ => ⟨S1x2048, .f32⟩
  | .local _ .vmem, ⟨18, _⟩ => ⟨S128x256, .bf16⟩
  | .local _ .vmem, ⟨19, _⟩ => ⟨S256x32, .f32⟩
  | .local _ .vmem, ⟨20, _⟩ => ⟨S256x2048, .f32⟩
  | .local _ .vmem, ⟨21, _⟩ => ⟨S256x2048, .f32⟩
  | .local _ .vmem, ⟨22, _⟩ => ⟨S256x32, .f32⟩
  | .local _ .vmem, ⟨23, _⟩ => ⟨S256x32, .f32⟩
  | .local _ .vmem, ⟨24, _⟩ => ⟨S256x128, .f32⟩
  | .local _ .vmem, ⟨25, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27_0 : Ref sig .tc := ⟨.hbm, 62, rfl⟩
abbrev main_v27_1 : Ref sig .tc := ⟨.hbm, 63, rfl⟩
abbrev main_v27_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  shapeCasts_S1024_S1x1024 : S1024.ShapeCasts S1x1024
  shapeCasts_S2048_S1x2048 : S2048.ShapeCasts S1x2048
  shapeCasts_S128_S1x128 : S128.ShapeCasts S1x128
  bcast_S_S256 : S_.BroadcastsInDim S256 (![] : Fin 0 → Fin S256.rank)
  bcast_S256_S256x1_0 : S256.BroadcastsInDim S256x1 (![0] : Fin 1 → Fin S256x1.rank)
  bcast_S32_S1x32_1 : S32.BroadcastsInDim S1x32 (![1] : Fin 1 → Fin S1x32.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  reduces_S256x32_S256 : S256x32.Reduces [1] S256
  shapeCasts_S256_S256x1 : S256.ShapeCasts S256x1
  broadcasts_S256x1_S256x32 : S256x1.Broadcasts S256x32
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x128_S256x128_1_0_0_1_n_n_wf : DotDims.WF S256x2048 S2048x128 S256x128 [1] [0] [0] [1] [] []
  dot_S256x128_S128x2048_S256x2048_1_0_0_1_n_n_wf : DotDims.WF S256x128 S128x2048 S256x2048 [1] [0] [0] [1] [] []
  dot_S256x128_S128x256_S256x256_1_0_0_1_n_n_wf : DotDims.WF S256x128 S128x256 S256x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .bf16 = 32 ∨ (Rect.block (s := S16384x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x128.size a
  hwx0_7 : ∀ i : grid0.Coords, EltTy.bits .bf16 = 32 ∨ (Rect.block (s := S2048x128) S2048x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S128x2048.size a
  hwx0_9 : ∀ i : grid0.Coords, EltTy.bits .bf16 = 32 ∨ (Rect.block (s := S128x2048) S128x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x2048.size a ≤ S1024x2048.size a
  hwx0_15 : ∀ i : grid0.Coords, EltTy.bits .bf16 = 32 ∨ (Rect.block (s := S1024x2048) S1024x2048.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x2048.size a
  hwx0_16 : ∀ i : grid0.Coords, EltTy.bits .f32 = 32 ∨ (Rect.block (s := S1x2048) S1x2048.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .bf16 = 32 ∨ (Rect.block (s := S128x256) S128x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x32.size a ≤ S256x32.size a
  hwx0_18 : ∀ i : grid0.Coords, EltTy.bits .f32 = 32 ∨ (Rect.block (s := S256x32) S256x32.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x2048.size a ≤ S16384x2048.size a
  hwx0_19 : ∀ i : grid0.Coords, EltTy.bits .f32 = 32 ∨ (Rect.block (s := S16384x2048) S256x2048.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x32.size a ≤ S16384x32.size a
  hwx0_20 : ∀ i : grid0.Coords, EltTy.bits .f32 = 32 ∨ (Rect.block (s := S16384x32) S256x32.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S256x128.size a ≤ S16384x128.size a
  hwx0_21 : ∀ i : grid0.Coords, EltTy.bits .f32 = 32 ∨ (Rect.block (s := S16384x128) S256x128.size (cc0_transform_21 i) (hinb0_21 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1024x2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x2048.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v26) S256x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27_0) S256x2048.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v27_1) S256x32.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v27_2) S256x128.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024 : Shape := ⟨1, ![1024]⟩
abbrev S1024x1024 : Shape := ⟨2, ![1024, 1024]⟩
abbrev S1024x2048 : Shape := ⟨2, ![1024, 2048]⟩
abbrev S2048 : Shape := ⟨1, ![2048]⟩
abbrev S2048x128 : Shape := ⟨2, ![2048, 128]⟩
abbrev S128 : Shape := ⟨1, ![128]⟩
abbrev S128x2048 : Shape := ⟨2, ![128, 2048]⟩
abbrev S128x256 : Shape := ⟨2, ![128, 256]⟩
abbrev S16384x1024 : Shape := ⟨2, ![16384, 1024]⟩
abbrev S1x1024 : Shape := ⟨2, ![1, 1024]⟩
abbrev S_ : Shape := ⟨0, ![]⟩
abbrev S1x2048 : Shape := ⟨2, ![1, 2048]⟩
abbrev S16384x128 : Shape := ⟨2, ![16384, 128]⟩
abbrev S1x128 : Shape := ⟨2, ![1, 128]⟩
abbrev S16384x256 : Shape := ⟨2, ![16384, 256]⟩
abbrev S16384x32x8 : Shape := ⟨3, ![16384, 32, 8]⟩
abbrev S16384x32 : Shape := ⟨2, ![16384, 32]⟩
abbrev S16384 : Shape := ⟨1, ![16384]⟩
abbrev S16384x1 : Shape := ⟨2, ![16384, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S2048x128, .f32⟩
  | .hbm, ⟨8, _⟩ => ⟨S128, .f32⟩
  | .hbm, ⟨9, _⟩ => ⟨S128x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x2048, .f32⟩
  | .hbm, ⟨16, _⟩ => ⟨S2048, .f32⟩
  | .hbm, ⟨17, _⟩ => ⟨S128x256, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x128, .f32⟩
  | .hbm, ⟨40, _⟩ => ⟨S1x128, .f32⟩
  | .hbm, ⟨41, _⟩ => ⟨S16384x128, .f32⟩
  | .hbm, ⟨42, _⟩ => ⟨S16384x128, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x2048, .f32⟩
  | .hbm, ⟨65, _⟩ => ⟨S1x2048, .f32⟩
  | .hbm, ⟨66, _⟩ => ⟨S16384x2048, .f32⟩
  | .hbm, ⟨67, _⟩ => ⟨S16384x2048, .f32⟩
  | .hbm, ⟨68, _⟩ => ⟨S16384x256, .f32⟩
  | .hbm, ⟨69, _⟩ => ⟨S16384x32x8, .f32⟩
  | .hbm, ⟨70, _⟩ => ⟨S16384x32x8, .f32⟩
  | .hbm, ⟨71, _⟩ => ⟨S_, .f32⟩
  | .hbm, ⟨72, _⟩ => ⟨S16384x32, .f32⟩
  | .hbm, ⟨73, _⟩ => ⟨S_, .f32⟩
  | .hbm, ⟨74, _⟩ => ⟨S16384x32, .f32⟩
  | .hbm, ⟨75, _⟩ => ⟨S16384x32, .f32⟩
  | .hbm, ⟨76, _⟩ => ⟨S_, .f32⟩
  | .hbm, ⟨77, _⟩ => ⟨S16384x32, .f32⟩
  | .hbm, ⟨78, _⟩ => ⟨S16384x32, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x32, .f32⟩
  | .hbm, ⟨83, _⟩ => ⟨S16384x32, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call4_cst : Ref sig .tc := ⟨.hbm, 54, rfl⟩
abbrev main_call4_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call5_cst : Ref sig .tc := ⟨.hbm, 61, rfl⟩
abbrev main_call5_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst : Ref sig .tc := ⟨.hbm, 71, rfl⟩
abbrev main_v41 : Ref sig .tc := ⟨.hbm, 72, rfl⟩
abbrev main_cst_0 : Ref sig .tc := ⟨.hbm, 73, rfl⟩
abbrev main_v42 : Ref sig .tc := ⟨.hbm, 74, rfl⟩
abbrev main_v43 : Ref sig .tc := ⟨.hbm, 75, rfl⟩
abbrev main_cst_1 : Ref sig .tc := ⟨.hbm, 76, rfl⟩
abbrev main_v44 : Ref sig .tc := ⟨.hbm, 77, rfl⟩
abbrev main_v45 : Ref sig .tc := ⟨.hbm, 78, rfl⟩
abbrev main_cst_2 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x256_S16384x32x8 : S16384x256.ShapeCasts S16384x32x8
  reducesTo_S16384x32x8_S16384x32_d2 : S16384x32x8.ReducesTo [2] S16384x32
  h_S_ : 0 < S_.numel
  bcast_S_S16384x32 : S_.BroadcastsInDim S16384x32 (![] : Fin 0 → Fin S16384x32.rank)
  reducesTo_S16384x32_S16384_d1 : S16384x32.ReducesTo [1] S16384
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x2048_S16384x2048_1_0_0_1_n_n_wf : DotDims.WF S16384x1024 S1024x2048 S16384x2048 [1] [0] [0] [1] [] []
  dot_S16384x2048_S2048x128_S16384x128_1_0_0_1_n_n_wf : DotDims.WF S16384x2048 S2048x128 S16384x128 [1] [0] [0] [1] [] []
  dot_S16384x128_S128x2048_S16384x2048_1_0_0_1_n_n_wf : DotDims.WF S16384x128 S128x2048 S16384x2048 [1] [0] [0] [1] [] []
  dot_S16384x128_S128x256_S16384x256_1_0_0_1_n_n_wf : DotDims.WF S16384x128 S128x256 S16384x256 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x128_S16384x128_1_0_0_1_n_n : DotDims S16384x2048 S2048x128 S16384x128 where
  lhsContracting := [1]
  rhsContracting := [0]
  lhsNonContracting := [0]
  rhsNonContracting := [1]
  lhsBatch := []
  rhsBatch := []
  wf := dot_S16384x2048_S2048x128_S16384x128_1_0_0_1_n_n_wf
def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibDenseRows.lean ====
/-
  A dense layer read one row at a time, at the ideal values.

  A matrix of R rows is R rows: `row X p` is row p of X as a function of the column, `mat W` a weight matrix as a
  function of (input, output), `vec b` a bias vector as a function of the output. One row through a layer:
    mm h W    = h · W                 (the plain matrix product's row)
    lin h W b = h · W + b             (affine)
    relu h    = max h 0               (the maximum with the float zero, entry by entry)
  and the facts here say that the two programs' spellings of a layer compute exactly that, row by row, in the
  extended reals, with no finiteness asked:
    * a kernel's layer — `tpu.matmul` into the zero accumulator, the weights and a 1×N bias row re-cast to their own
      shapes, the row copied to every row, an addition; then a maximum with a splat zero and a change of float format;
    * a host's layer — `dot_general`, the length-N bias broadcast to 1×N and then to R×N, an addition; then a
      maximum with a rank-0 zero broadcast to R×N.
  The dimension record of each product may be any record equal to the plain one (for a printed record, `rfl`).
-/
import Idealize.ShloMosaic.PureOps.Ideal.Laws
import Idealize.ShloMosaic.Lib.Pipeline.Value
import Idealize.ShloMosaic.Lib.ValueIdx
import proofs.«168007_j9921374454086_2_alg».proof.Proof.LibPlainDot
import proofs.«168007_j9921374454086_2_alg».proof.Proof.LibRowVector
import proofs.«168007_j9921374454086_2_alg».proof.Proof.LibRowInDim

noncomputable section

open scoped BigOperators

namespace Cert.DenseRows

open Idealize.ShloMosaic Idealize.ShloMosaic.ValueIdx

/-! ## Rows, and one row through a layer -/

/-- Row p of a matrix, as a function of the column. -/
def row {α : Type} {R K : Nat} (X : (⟨2, ![R, K]⟩ : Shape).Idx → α) (p : Fin R) : Fin K → α := fun k => X (ix2 p k)

/-- A matrix as a function of (row, column). -/
def mat {α : Type} {K N : Nat} (W : (⟨2, ![K, N]⟩ : Shape).Idx → α) : Fin K → Fin N → α := fun k c => W (ix2 k c)

/-- A vector as a function of its coordinate. -/
def vec {α : Type} {N : Nat} (b : (⟨1, ![N]⟩ : Shape).Idx → α) : Fin N → α := fun c => b (ix1 c)

/-- One row through a matrix: h · W. -/
def mm {K N : Nat} (h : Fin K → EReal) (W : Fin K → Fin N → EReal) : Fin N → EReal :=
  fun c => ∑ k : Fin K, h k * W k c

/-- One row through an affine layer: h · W + b. -/
def lin {K N : Nat} (h : Fin K → EReal) (W : Fin K → Fin N → EReal) (b : Fin N → EReal) : Fin N → EReal :=
  fun c => (∑ k : Fin K, h k * W k c) + b c

/-- The maximum with the float zero, entry by entry. -/
def relu {N : Nat} (h : Fin N → EReal) : Fin N → EReal :=
  fun c => max (h c) (Ideal.ofBits .f32 0x00000000#32)

variable {R K N : Nat} {φ₁ φ₂ : FTy}

/-! ## A kernel's spelling -/

/-- A `tpu.matmul` into the zero accumulator, the right operand re-cast to its own shape: row p is (row p of X) · W. -/
theorem row_matmul (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂)
    (hW : (⟨2, ![K, N]⟩ : Shape).ShapeCasts ⟨2, ![K, N]⟩) (p : Fin R) :
    row (matmul D prec X (shapeCast ⟨2, ![K, N]⟩ W hW) (constant (F := Ideal) ⟨2, ![R, N]⟩ .f32 0x00000000#32)) p
      = mm (row X p) (mat W) := by
  funext c
  rw [shapeCast_self]
  exact PlainDot.matmul_zero_apply D hD prec X W p c

/-- The same with a 1×N bias row added to every row: row p is (row p of X) · W + b. -/
theorem row_matmul_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨2, ![1, N]⟩ .f32)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![R, N]⟩) (p : Fin R) :
    row (addf (matmul D prec X (shapeCast ⟨2, ![K, N]⟩ W hW) (constant (F := Ideal) ⟨2, ![R, N]⟩ .f32 0x00000000#32))
        (broadcastTo ⟨2, ![R, N]⟩ (shapeCast ⟨2, ![1, N]⟩ b hb) hbc)) p
      = lin (row X p) (mat W) (row b 0) := by
  funext c
  show matmul D prec X (shapeCast ⟨2, ![K, N]⟩ W hW) (constant (F := Ideal) ⟨2, ![R, N]⟩ .f32 0x00000000#32) (ix2 p c)
      + broadcastTo ⟨2, ![R, N]⟩ (shapeCast ⟨2, ![1, N]⟩ b hb) hbc (ix2 p c) = _
  rw [shapeCast_self, shapeCast_self, RowVector.broadcastTo_row hN]
  exact congrArg (· + b (ix2 0 c)) (PlainDot.matmul_zero_apply D hD prec X W p c)

/-- A maximum with the splat zero, then a change of float format: row p is relu of row p. -/
theorem row_relu_trunc {ψ : FTy} (Y : FVec Ideal ⟨2, ![R, N]⟩ .f32) (h : ψ.bits < FTy.f32.bits) (p : Fin R) :
    row (truncf ψ (maximumf Y (broadcast ⟨2, ![R, N]⟩ (Scalar.ofBits (F := Ideal) .f32 0x00000000#32))) h) p
      = relu (row Y p) := rfl

/-- A change of float format keeps every row. -/
theorem row_trunc {ψ : FTy} (Y : FVec Ideal ⟨2, ![R, N]⟩ .f32) (h : ψ.bits < FTy.f32.bits) (p : Fin R) :
    row (truncf ψ Y h) p = row Y p := rfl

/-! ## A host's spelling -/

/-- A `dot_general` with the bias, a length-N vector, broadcast to 1×N and then to every row, added:
    row r is (row r of X) · W + b. -/
theorem row_dot_bias (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) :
    row (addf (Host.dotGeneral D prec X W)
        (broadcastInDim ⟨2, ![R, N]⟩ ![0, 1] h2 (broadcastInDim ⟨2, ![1, N]⟩ ![1] h1 b))) r
      = lin (row X r) (mat W) (vec b) := by
  funext c
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD]
  refine congrArg (_ + ·) ?_
  exact broadcastInDim_apply _ h1 b (ix2 0 c) (ix1 c) (fun a => match a with
    | ⟨0, _⟩ => by
      show c.val = if N = 1 then 0 else c.val
      rw [if_neg hN])

/-- A `dot_general` alone: row r is (row r of X) · W. -/
theorem row_dot (D : DotDims ⟨2, ![R, K]⟩ ⟨2, ![K, N]⟩ ⟨2, ![R, N]⟩) (hD : D = DotDims.plain R K N)
    (prec : Option ContractPrecision) (X : FVec Ideal ⟨2, ![R, K]⟩ φ₁) (W : FVec Ideal ⟨2, ![K, N]⟩ φ₂) (r : Fin R) :
    row (Host.dotGeneral D prec X W) r = mm (row X r) (mat W) :=
  funext fun c => PlainDot.dotGeneral_apply D hD prec .single X W r c

/-- A maximum with the rank-0 zero broadcast to every entry: row r is relu of row r. -/
theorem row_relu_host (Y : FVec Ideal ⟨2, ![R, N]⟩ .f32)
    (h0 : (⟨0, ![]⟩ : Shape).BroadcastsInDim ⟨2, ![R, N]⟩ (![] : Fin 0 → Fin 2)) (r : Fin R) :
    row (maximumf Y (broadcastInDim ⟨2, ![R, N]⟩ ![] h0 (constant (F := Ideal) ⟨0, ![]⟩ .f32 0x00000000#32))) r
      = relu (row Y r) := by
  funext c
  show max (Y (ix2 r c)) (broadcastInDim ⟨2, ![R, N]⟩ ![] h0 (constant (F := Ideal) ⟨0, ![]⟩ .f32 0x00000000#32) (ix2 r c)) = _
  rw [broadcastInDim_apply _ h0 _ (ix2 r c) ix0 (fun a => a.elim0)]
  rfl

end Cert.DenseRows

end
-- ==== Proof.Net.lean ====
/-
  The network one row at a time, over the extended reals.

  Every result row of the three outputs depends on one row of the data matrix only. With x a row of 2048 entries:
    encoder   z     = lin (relu (lin (relu (lin (relu (lin x W1 b1)) W2 b2)) W3 b3)) Wz bz            (128 entries)
    decoder   xbar  = lin (relu (lin (relu (lin (relu (lin z V1 c1)) V2 c2)) V3 c3)) Vx cx            (2048 entries)
    affinity  s_c   = q_c / Σ_c' q_c',  q_c = (Σ_{d<8} p_{8c+d}² + 40) / 48,  p = z · D               (32 entries)
  where lin h W b = h · W + b and relu is the maximum with zero. The two float constants 40 and 48 stay the words
  they are printed as; division is the extended reals' total division.

  One law is proved here: summing p_j² against the 0/1 matrix that pairs column j with cluster j / 8 is the sum of
  the eight squares of cluster c. It needs no finiteness: a product with 0 is 0 and with 1 is the factor itself, for
  every extended real.
-/
import Idealize.ShloMosaic.PureOps.Ideal
import Idealize.ShloMosaic.Lib.ValueIdx
import proofs.«168007_j9921374454086_2_alg».proof.Proof.LibDenseRows

noncomputable section

open scoped BigOperators

namespace Cert.Net

open Idealize.ShloMosaic Idealize.ShloMosaic.ValueIdx Cert.DenseRows

/-- The encoder's weights. -/
structure Enc where
  W1 : Fin 2048 → Fin 1024 → EReal
  b1 : Fin 1024 → EReal
  W2 : Fin 1024 → Fin 1024 → EReal
  b2 : Fin 1024 → EReal
  W3 : Fin 1024 → Fin 2048 → EReal
  b3 : Fin 2048 → EReal
  Wz : Fin 2048 → Fin 128 → EReal
  bz : Fin 128 → EReal

/-- The decoder's weights. -/
structure Dec where
  V1 : Fin 128 → Fin 2048 → EReal
  c1 : Fin 2048 → EReal
  V2 : Fin 2048 → Fin 1024 → EReal
  c2 : Fin 1024 → EReal
  V3 : Fin 1024 → Fin 1024 → EReal
  c3 : Fin 1024 → EReal
  Vx : Fin 1024 → Fin 2048 → EReal
  cx : Fin 2048 → EReal

/-- Two encoders with the same eight weights are one. -/
theorem Enc.congr {W1 W1' : Fin 2048 → Fin 1024 → EReal} {b1 b1' : Fin 1024 → EReal}
    {W2 W2' : Fin 1024 → Fin 1024 → EReal} {b2 b2' : Fin 1024 → EReal} {W3 W3' : Fin 1024 → Fin 2048 → EReal}
    {b3 b3' : Fin 2048 → EReal} {Wz Wz' : Fin 2048 → Fin 128 → EReal} {bz bz' : Fin 128 → EReal}
    (h1 : W1 = W1') (h2 : b1 = b1') (h3 : W2 = W2') (h4 : b2 = b2') (h5 : W3 = W3') (h6 : b3 = b3') (h7 : Wz = Wz')
    (h8 : bz = bz') : (⟨W1, b1, W2, b2, W3, b3, Wz, bz⟩ : Enc) = ⟨W1', b1', W2', b2', W3', b3', Wz', bz'⟩ := by
  subst h1 h2 h3 h4 h5 h6 h7 h8; rfl

/-- Two decoders with the same eight weights are one. -/
theorem Dec.congr {V1 V1' : Fin 128 → Fin 2048 → EReal} {c1 c1' : Fin 2048 → EReal}
    {V2 V2' : Fin 2048 → Fin 1024 → EReal} {c2 c2' : Fin 1024 → EReal} {V3 V3' : Fin 1024 → Fin 1024 → EReal}
    {c3 c3' : Fin 1024 → EReal} {Vx Vx' : Fin 1024 → Fin 2048 → EReal} {cx cx' : Fin 2048 → EReal}
    (h1 : V1 = V1') (h2 : c1 = c1') (h3 : V2 = V2') (h4 : c2 = c2') (h5 : V3 = V3') (h6 : c3 = c3') (h7 : Vx = Vx')
    (h8 : cx = cx') : (⟨V1, c1, V2, c2, V3, c3, Vx, cx⟩ : Dec) = ⟨V1', c1', V2', c2', V3', c3', Vx', cx'⟩ := by
  subst h1 h2 h3 h4 h5 h6 h7 h8; rfl

/-- The code of a row: three hidden layers with relu, then a linear layer. -/
def Enc.z (E : Enc) (x : Fin 2048 → EReal) : Fin 128 → EReal :=
  lin (relu (lin (relu (lin (relu (lin x E.W1 E.b1)) E.W2 E.b2)) E.W3 E.b3)) E.Wz E.bz

/-- The reconstruction from a code: three hidden layers with relu, then a linear layer. -/
def Dec.xbar (Dc : Dec) (z : Fin 128 → EReal) : Fin 2048 → EReal :=
  lin (relu (lin (relu (lin (relu (lin z Dc.V1 Dc.c1)) Dc.V2 Dc.c2)) Dc.V3 Dc.c3)) Dc.Vx Dc.cx

/-- Column 8c + d of the 256 projected columns: entry d of cluster c. -/
def slot (c : Fin 32) (d : Fin 8) : Fin 256 := ⟨c.val * 8 + d.val, by have := c.isLt; have := d.isLt; omega⟩

/-- A cluster's energy, shifted and scaled: (Σ_d p_{8c+d}² + 40) / 48. -/
def energy (p : Fin 256 → EReal) : Fin 32 → EReal :=
  fun c => Ideal.div ((∑ d : Fin 8, p (slot c d) * p (slot c d)) + Ideal.ofBits .f32 0x42200000#32)
    (Ideal.ofBits .f32 0x42400000#32)

/-- A row of nonnegative scores divided by its sum. -/
def normalize (q : Fin 32 → EReal) : Fin 32 → EReal :=
  fun c => Ideal.div (q c) (∑ c' : Fin 32, q c')

/-- The cluster affinities of a code. -/
def affinity (D : Fin 128 → Fin 256 → EReal) (z : Fin 128 → EReal) : Fin 32 → EReal :=
  normalize (energy (mm z D))

/-! ## The weights as arrays, and the three results as whole arrays -/

/-- The encoder's weights read off four weight matrices and four bias vectors. -/
def encOfArrays (a1 : (⟨2, ![2048, 1024]⟩ : Shape).Idx → EReal) (a2 : (⟨1, ![1024]⟩ : Shape).Idx → EReal)
    (a3 : (⟨2, ![1024, 1024]⟩ : Shape).Idx → EReal) (a4 : (⟨1, ![1024]⟩ : Shape).Idx → EReal)
    (a5 : (⟨2, ![1024, 2048]⟩ : Shape).Idx → EReal) (a6 : (⟨1, ![2048]⟩ : Shape).Idx → EReal)
    (a7 : (⟨2, ![2048, 128]⟩ : Shape).Idx → EReal) (a8 : (⟨1, ![128]⟩ : Shape).Idx → EReal) : Enc :=
  { W1 := mat a1, b1 := vec a2, W2 := mat a3, b2 := vec a4, W3 := mat a5, b3 := vec a6, Wz := mat a7, bz := vec a8 }

/-- The decoder's weights read off four weight matrices and four bias vectors. -/
def decOfArrays (a9 : (⟨2, ![128, 2048]⟩ : Shape).Idx → EReal) (a10 : (⟨1, ![2048]⟩ : Shape).Idx → EReal)
    (a11 : (⟨2, ![2048, 1024]⟩ : Shape).Idx → EReal) (a12 : (⟨1, ![1024]⟩ : Shape).Idx → EReal)
    (a13 : (⟨2, ![1024, 1024]⟩ : Shape).Idx → EReal) (a14 : (⟨1, ![1024]⟩ : Shape).Idx → EReal)
    (a15 : (⟨2, ![1024, 2048]⟩ : Shape).Idx → EReal) (a16 : (⟨1, ![2048]⟩ : Shape).Idx → EReal) : Dec :=
  { V1 := mat a9, c1 := vec a10, V2 := mat a11, c2 := vec a12, V3 := mat a13, c3 := vec a14, Vx := mat a15, cx := vec a16 }

/-- The code of every row of the data. -/
def codeArr (x : (⟨2, ![16384, 2048]⟩ : Shape).Idx → EReal) (E : Enc) : (⟨2, ![16384, 128]⟩ : Shape).Idx → EReal :=
  fun i => E.z (row x (i 0)) (i 1)

/-- The reconstruction of every row of the data. -/
def reconArr (x : (⟨2, ![16384, 2048]⟩ : Shape).Idx → EReal) (E : Enc) (Dc : Dec) :
    (⟨2, ![16384, 2048]⟩ : Shape).Idx → EReal :=
  fun i => Dc.xbar (E.z (row x (i 0))) (i 1)

/-- The cluster affinities of every row of the data. -/
def affArr (x : (⟨2, ![16384, 2048]⟩ : Shape).Idx → EReal) (E : Enc) (D : (⟨2, ![128, 256]⟩ : Shape).Idx → EReal) :
    (⟨2, ![16384, 32]⟩ : Shape).Idx → EReal :=
  fun i => affinity (mat D) (E.z (row x (i 0))) (i 1)

/-- The 0/1 matrix that pairs column j with cluster j / 8. -/
def pool (j : Fin 256) (c : Fin 32) : EReal := if j.val / 8 = c.val then 1 else 0

/-- Summing f against column c of the pairing matrix keeps the eight entries of cluster c. -/
theorem sum_mul_pool (f : Fin 256 → EReal) (c : Fin 32) :
    (∑ j : Fin 256, f j * pool j c) = ∑ d : Fin 8, f (slot c d) := by
  have e : (∑ j : Fin 256, f j * pool j c)
      = ∑ ab : Fin 32 × Fin 8, f (slot ab.1 ab.2) * pool (slot ab.1 ab.2) c := by
    refine (Fintype.sum_equiv (finProdFinEquiv (m := 32) (n := 8)) _ _ fun ab => ?_).symm
    have hs : (finProdFinEquiv (m := 32) (n := 8)) ab = slot ab.1 ab.2 := by
      apply Fin.ext
      show ab.2.val + 8 * ab.1.val = ab.1.val * 8 + ab.2.val
      omega
    rw [hs]
  rw [e, Fintype.sum_prod_type]
  rw [Finset.sum_eq_single c]
  · refine Finset.sum_congr rfl fun d _ => ?_
    have h : (slot c d).val / 8 = c.val := by
      show (c.val * 8 + d.val) / 8 = c.val
      have := d.isLt; omega
    unfold pool
    rw [if_pos h, mul_one]
  · intro a _ hac
    refine Finset.sum_eq_zero fun d _ => ?_
    have h : ¬ (slot a d).val / 8 = c.val := by
      show ¬ (a.val * 8 + d.val) / 8 = c.val
      have := d.isLt
      have hne : a.val ≠ c.val := fun h => hac (Fin.ext h)
      omega
    unfold pool
    rw [if_neg h, mul_zero]
  · intro h; exact absurd (Finset.mem_univ c) h

end Cert.Net

end
-- ==== Proof.LibMaskWords.lean ====
/-
  Small facts about 0/1 masks and sums, over the extended reals and over literal shapes.
    * a finite sum of products of real numbers, computed in the extended reals, is the real sum;
    * a sum over the indices of a one-axis shape, or of an `[n, 1]` column, is the sum over the coordinate;
    * the one-bit word of an integer equality test selects by the equality, and converted to a float — widened and read
      signed, or read unsigned — it is the 0/1 mask of the equality.
-/
import Idealize.ShloMosaic.PureOps.Ideal
import Idealize.ShloMosaic.Lib.ValueIdx
import Idealize.ShloMosaic.Lib.Affine

noncomputable section

namespace Idealize.ShloMosaic.MaskWords

open Idealize.ShloMosaic Idealize.ShloMosaic.ValueIdx

/-! ## Sums -/

/-- A finite sum of products of reals, computed in the extended reals, is the real sum. -/
theorem sum_coe_mul {κ : Type} [Fintype κ] (a b : κ → ℝ) :
    ∑ k, ((a k : EReal) * (b k : EReal)) = ((∑ k, a k * b k : ℝ) : EReal) := by
  classical
  induction (Finset.univ : Finset κ) using Finset.induction_on with
  | empty => simp
  | insert x s hx ih => rw [Finset.sum_insert hx, Finset.sum_insert hx, ih, EReal.coe_add, EReal.coe_mul]

/-- A sum over the indices of a one-axis shape is the sum over its coordinate. -/
theorem sum_idx1 {M : Type} [AddCommMonoid M] {n : Nat} (f : (⟨1, ![n]⟩ : Shape).Idx → M) :
    ∑ j, f j = ∑ a : Fin n, f (ix1 a) := by
  let e : Fin n ≃ (⟨1, ![n]⟩ : Shape).Idx :=
    { toFun := ix1, invFun := fun j => j 0, left_inv := fun _ => rfl, right_inv := fun j => (eq_ix1 j).symm }
  exact (Equiv.sum_comp e f).symm

/-- A sum over the indices of an `[n, 1]` column is the sum over its rows. -/
theorem sum_idx_col {M : Type} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

/-! ## The word of an integer equality test -/

/-- The word of an integer equality test, used as a selector, selects by the equality. -/
theorem select_cmpi_eq {α : Type} {w : Nat} (x y : BitVec w) (a b : α) :
    Scalar.select (IntOp.cmpi .eq x y) a b = if x = y then a else b := by
  by_cases h : x = y
  · rw [if_pos h, IntOp.cmpi_eq.mpr h]; exact select_one a b
  · rw [if_neg h, eq_zero_of_ne_one (fun e => h (IntOp.cmpi_eq.mp e))]; exact select_zero a b

/-- The word of an integer equality test, widened and read as a signed integer, is the 0/1 mask. -/
theorem sitofp_cmpi_eq {w : Nat} (x y : BitVec w) :
    (((((IntOp.cmpi .eq x y).setWidth 32).toInt : ℤ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

/-- The same word read as an unsigned integer is the same mask. -/
theorem uitofp_cmpi_eq {w : Nat} (x y : BitVec w) :
    ((((IntOp.cmpi .eq x y).toNat : ℕ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

end Idealize.ShloMosaic.MaskWords

end
-- ==== Proof.KernelEntry.lean ====
/-
  What the region finds in its operands' arrays.

  Before the region the host prepares the kernel's operands from the arguments. At the ideal values a change of float
  format is the identity, so the data and the nine weight matrices arrive as the arguments themselves; each bias vector
  arrives viewed as a 1×N row; and the pairing block is computed from integers alone: entry (j, k) is 1 when
  floor_divide(j, 8) = k and 0 otherwise, the quotient lowered as the truncated quotient less one where the signs differ
  and the remainder is not zero — for 0 ≤ j < 256 and the divisor 8 that is j / 8, checked entry by entry.
-/
import proofs.«168007_j9921374454086_2_alg».proof.Proof.Gen.KernelIdeal.Frame
import proofs.«168007_j9921374454086_2_alg».proof.Proof.Net
import proofs.«168007_j9921374454086_2_alg».proof.Proof.LibMaskWords
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Read one buffer after the three stretches of host operations. -/
local macro "host_read" : tactic =>
  `(tactic| (dsimp only [Gen.V]
             simp only [Gen.hostOps0, Gen.hostOps0_1, Gen.hostOps0_2, List.flatten_cons, List.flatten_nil, List.append_nil,
               List.cons_append, List.nil_append]
             after_results_simp
             rfl))

/-! ## The data and the weights: the arguments themselves -/

theorem entry_v0 (c : Dev nD) : (V m c main_v0 : S16384x2048.Idx → EReal) = m ((c : Thread nD τ).loc main_arg0) := by host_read
theorem entry_v1 (c : Dev nD) : (V m c main_v1 : S2048x1024.Idx → EReal) = m ((c : Thread nD τ).loc main_arg1) := by host_read
theorem entry_v2 (c : Dev nD) : (V m c main_v2 : S1024x1024.Idx → EReal) = m ((c : Thread nD τ).loc main_arg3) := by host_read
theorem entry_v3 (c : Dev nD) : (V m c main_v3 : S1024x2048.Idx → EReal) = m ((c : Thread nD τ).loc main_arg5) := by host_read
theorem entry_v4 (c : Dev nD) : (V m c main_v4 : S2048x128.Idx → EReal) = m ((c : Thread nD τ).loc main_arg7) := by host_read
theorem entry_v5 (c : Dev nD) : (V m c main_v5 : S128x2048.Idx → EReal) = m ((c : Thread nD τ).loc main_arg9) := by host_read
theorem entry_v6 (c : Dev nD) : (V m c main_v6 : S2048x1024.Idx → EReal) = m ((c : Thread nD τ).loc main_arg11) := by host_read
theorem entry_v7 (c : Dev nD) : (V m c main_v7 : S1024x1024.Idx → EReal) = m ((c : Thread nD τ).loc main_arg13) := by host_read
theorem entry_v8 (c : Dev nD) : (V m c main_v8 : S1024x2048.Idx → EReal) = m ((c : Thread nD τ).loc main_arg15) := by host_read
theorem entry_v9 (c : Dev nD) : (V m c main_v9 : S128x256.Idx → EReal) = m ((c : Thread nD τ).loc main_arg17) := by host_read

/-! ## The biases: each vector viewed as a 1×N row -/

theorem entry_v10 (c : Dev nD) :
    (V m c main_v10 : S1x1024.Idx → EReal) = shapeCast S1x1024 (m ((c : Thread nD τ).loc main_arg2) : S1024.Idx → EReal) shapeCasts_S1024_S1x1024 := by host_read
theorem entry_v11 (c : Dev nD) :
    (V m c main_v11 : S1x1024.Idx → EReal) = shapeCast S1x1024 (m ((c : Thread nD τ).loc main_arg4) : S1024.Idx → EReal) shapeCasts_S1024_S1x1024 := by host_read
theorem entry_v12 (c : Dev nD) :
    (V m c main_v12 : S1x2048.Idx → EReal) = shapeCast S1x2048 (m ((c : Thread nD τ).loc main_arg6) : S2048.Idx → EReal) shapeCasts_S2048_S1x2048 := by host_read
theorem entry_v13 (c : Dev nD) :
    (V m c main_v13 : S1x128.Idx → EReal) = shapeCast S1x128 (m ((c : Thread nD τ).loc main_arg8) : S128.Idx → EReal) shapeCasts_S128_S1x128 := by host_read
theorem entry_v14 (c : Dev nD) :
    (V m c main_v14 : S1x2048.Idx → EReal) = shapeCast S1x2048 (m ((c : Thread nD τ).loc main_arg10) : S2048.Idx → EReal) shapeCasts_S2048_S1x2048 := by host_read
theorem entry_v15 (c : Dev nD) :
    (V m c main_v15 : S1x1024.Idx → EReal) = shapeCast S1x1024 (m ((c : Thread nD τ).loc main_arg12) : S1024.Idx → EReal) shapeCasts_S1024_S1x1024 := by host_read
theorem entry_v16 (c : Dev nD) :
    (V m c main_v16 : S1x1024.Idx → EReal) = shapeCast S1x1024 (m ((c : Thread nD τ).loc main_arg14) : S1024.Idx → EReal) shapeCasts_S1024_S1x1024 := by host_read
theorem entry_v17 (c : Dev nD) :
    (V m c main_v17 : S1x2048.Idx → EReal) = shapeCast S1x2048 (m ((c : Thread nD τ).loc main_arg16) : S2048.Idx → EReal) shapeCasts_S2048_S1x2048 := by host_read

/-! ## The pairing block -/

/-- floor_divide(j, 8) over j = 0 … 255 as the host lowers it. -/
def fdiv : IVec S256 32 :=
  select
    (andi
      (cmpi .ne (signi (iotaInDim S256 32 0)) (broadcastInDim S256 ![] bcast_S_S256 (signi (constantI S_ 32 8#32))))
      (cmpi .ne (Host.remsi (iotaInDim S256 32 0) (broadcastInDim S256 ![] bcast_S_S256 (constantI S_ 32 8#32)))
        (broadcastInDim S256 ![] bcast_S_S256 (constantI S_ 32 0#32))))
    (subi (Host.divsi (iotaInDim S256 32 0) (broadcastInDim S256 ![] bcast_S_S256 (constantI S_ 32 8#32)))
      (broadcastInDim S256 ![] bcast_S_S256 (constantI S_ 32 1#32)))
    (Host.divsi (iotaInDim S256 32 0) (broadcastInDim S256 ![] bcast_S_S256 (constantI S_ 32 8#32)))

/-- The pairing block as the host computes it: the 0/1 word of floor_divide(j, 8) = k, read as a float. -/
theorem entry_v26 (c : Dev nD) :
    (V m c main_v26 : S256x32.Idx → EReal)
      = uitofp (F := Ideal) .f32 (cmpi .eq
          (broadcastInDim S256x32 ![0, 1] bcast_S256x1_S256x32_0_1 (broadcastInDim S256x1 ![0] bcast_S256_S256x1_0 fdiv))
          (broadcastInDim S256x32 ![0, 1] bcast_S1x32_S256x32_0_1
            (broadcastInDim S1x32 ![1] bcast_S32_S1x32_1 (iotaInDim S32 32 0)))) := by host_read

/-- For 0 ≤ j < 256 the lowered floor division by 8 is j / 8 (all 256 entries evaluated). -/
theorem fdiv_apply : ∀ j : Fin 256, fdiv (ix1 j) = BitVec.ofNat 32 (j.val / 8) := by decide +kernel

/-- The pairing block at (j, k): 1 when j / 8 = k, else 0. -/
theorem entry_v26_apply (c : Dev nD) (j : Fin 256) (k : Fin 32) :
    (V m c main_v26 : S256x32.Idx → EReal) (ix2 j k) = Net.pool j k := by
  rw [entry_v26]
  show ((((IntOp.cmpi .eq
      (broadcastInDim S256x32 ![0, 1] bcast_S256x1_S256x32_0_1 (broadcastInDim S256x1 ![0] bcast_S256_S256x1_0 fdiv) (ix2 j k))
      (broadcastInDim S256x32 ![0, 1] bcast_S1x32_S256x32_0_1
        (broadcastInDim S1x32 ![1] bcast_S32_S1x32_1 (iotaInDim S32 32 0)) (ix2 j k))).toNat : ℕ) : ℝ) : EReal) = _
  rw [MaskWords.uitofp_cmpi_eq]
  have ha : broadcastInDim S256x32 ![0, 1] bcast_S256x1_S256x32_0_1
      (broadcastInDim S256x1 ![0] bcast_S256_S256x1_0 fdiv) (ix2 j k) = BitVec.ofNat 32 (j.val / 8) := by
    rw [broadcastInDim_apply _ bcast_S256x1_S256x32_0_1 _ (ix2 j k) (ix2 j (0 : Fin 1)) (fun a => match a with
        | ⟨0, _⟩ => by
          show j.val = if (256 : Nat) = 1 then 0 else j.val
          rw [if_neg (by decide)]
        | ⟨1, _⟩ => by
          show (0 : Nat) = if (1 : Nat) = 1 then 0 else k.val
          rw [if_pos rfl]),
      broadcastInDim_apply _ bcast_S256_S256x1_0 _ (ix2 j (0 : Fin 1)) (ix1 j) (fun a => match a with
        | ⟨0, _⟩ => by
          show j.val = if (256 : Nat) = 1 then 0 else j.val
          rw [if_neg (by decide)])]
    exact fdiv_apply j
  have hb : broadcastInDim S256x32 ![0, 1] bcast_S1x32_S256x32_0_1
      (broadcastInDim S1x32 ![1] bcast_S32_S1x32_1 (iotaInDim S32 32 0)) (ix2 j k) = BitVec.ofNat 32 k.val := by
    rw [broadcastInDim_apply _ bcast_S1x32_S256x32_0_1 _ (ix2 j k) (ix2 (0 : Fin 1) k) (fun a => match a with
        | ⟨0, _⟩ => by
          show (0 : Nat) = if (1 : Nat) = 1 then 0 else j.val
          rw [if_pos rfl]
        | ⟨1, _⟩ => by
          show k.val = if (32 : Nat) = 1 then 0 else k.val
          rw [if_neg (by decide)]),
      broadcastInDim_apply _ bcast_S32_S1x32_1 _ (ix2 (0 : Fin 1) k) (ix1 k) (fun a => match a with
        | ⟨0, _⟩ => by
          show k.val = if (32 : Nat) = 1 then 0 else k.val
          rw [if_neg (by decide)])]
    rfl
  rw [ha, hb]
  unfold Net.pool
  have hj := j.isLt
  have hk := k.isLt
  by_cases h : j.val / 8 = k.val
  · rw [if_pos h, if_pos (by rw [h])]
  · rw [if_neg h, if_neg]
    intro e
    apply h
    have e' := congrArg BitVec.toNat e
    rw [BitVec.toNat_ofNat, BitVec.toNat_ofNat] at e'
    omega

end Cert.KernelIdeal.Entry

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KernelRows.lean ====
/-
  The kernel's body, one row at a time.

  Every value the body stores is computed from its operands row by row: row p of the code, of the reconstruction and of
  the affinities depends on row p of the data block only. Each stored value is read here at row p as the row-level
  network of Net.lean applied to row p of the data block, with the weights read off the loaded weight blocks: a weight
  block as the matrix it is, a 1×N bias block as its one row.
-/
import proofs.«168007_j9921374454086_2_alg».proof.Proof.Gen.KernelIdeal.Skeleton
import proofs.«168007_j9921374454086_2_alg».proof.Proof.Net
import proofs.«168007_j9921374454086_2_alg».proof.Proof.LibRowOps

noncomputable section

open scoped BigOperators

namespace Cert.KernelIdeal.Rows

open Cert.KernelIdeal Cert.KernelIdeal.Gen Idealize.ShloMosaic Idealize.ShloMosaic.ValueIdx Cert.DenseRows Cert.Net

/-- The encoder's weights as the body loads them. -/
def encOf (P1 : Vec Ideal S2048x1024 .bf16) (P2 : Vec Ideal S1x1024 .f32) (P3 : Vec Ideal S1024x1024 .bf16)
    (P4 : Vec Ideal S1x1024 .f32) (P5 : Vec Ideal S1024x2048 .bf16) (P6 : Vec Ideal S1x2048 .f32)
    (P7 : Vec Ideal S2048x128 .bf16) (P8 : Vec Ideal S1x128 .f32) : Enc :=
  { W1 := mat P1, b1 := row P2 0, W2 := mat P3, b2 := row P4 0, W3 := mat P5, b3 := row P6 0, Wz := mat P7, bz := row P8 0 }

/-- The decoder's weights as the body loads them. -/
def decOf (P9 : Vec Ideal S128x2048 .bf16) (P10 : Vec Ideal S1x2048 .f32) (P11 : Vec Ideal S2048x1024 .bf16)
    (P12 : Vec Ideal S1x1024 .f32) (P13 : Vec Ideal S1024x1024 .bf16) (P14 : Vec Ideal S1x1024 .f32)
    (P15 : Vec Ideal S1024x2048 .bf16) (P16 : Vec Ideal S1x2048 .f32) : Dec :=
  { V1 := mat P9, c1 := row P10 0, V2 := mat P11, c2 := row P12 0, V3 := mat P13, c3 := row P14 0, Vx := mat P15, cx := row P16 0 }

/-- The stored code block, row p: the encoder on row p of the data block. -/
theorem code_row (P0 : Vec Ideal S256x2048 .bf16) (P1 : Vec Ideal S2048x1024 .bf16) (P2 : Vec Ideal S1x1024 .f32)
    (P3 : Vec Ideal S1024x1024 .bf16) (P4 : Vec Ideal S1x1024 .f32) (P5 : Vec Ideal S1024x2048 .bf16)
    (P6 : Vec Ideal S1x2048 .f32) (P7 : Vec Ideal S2048x128 .bf16) (P8 : Vec Ideal S1x128 .f32) (p : Fin 256) :
    row (k0_pay4 (F := Ideal) (k0_pay3 P0 P1 P2 P3 P4 P5 P6 P7) P8) p
      = (encOf P1 P2 P3 P4 P5 P6 P7 P8).z (row P0 p) := by
  unfold k0_pay4 k0_pay3
  rw [row_matmul_bias dot_S256x2048_S2048x128_S256x128_1_0_0_1_n_n rfl (by decide), row_relu_trunc,
    row_matmul_bias dot_S256x1024_S1024x2048_S256x2048_1_0_0_1_n_n rfl (by decide), row_relu_trunc,
    row_matmul_bias dot_S256x1024_S1024x1024_S256x1024_1_0_0_1_n_n rfl (by decide), row_relu_trunc,
    row_matmul_bias dot_S256x2048_S2048x1024_S256x1024_1_0_0_1_n_n rfl (by decide), shapeCast_self]
  rfl

/-- The stored reconstruction block, row p: the decoder on the code of row p of the data block. -/
theorem recon_row (P0 : Vec Ideal S256x2048 .bf16) (P1 : Vec Ideal S2048x1024 .bf16) (P2 : Vec Ideal S1x1024 .f32)
    (P3 : Vec Ideal S1024x1024 .bf16) (P4 : Vec Ideal S1x1024 .f32) (P5 : Vec Ideal S1024x2048 .bf16)
    (P6 : Vec Ideal S1x2048 .f32) (P7 : Vec Ideal S2048x128 .bf16) (P8 : Vec Ideal S1x128 .f32)
    (P9 : Vec Ideal S128x2048 .bf16) (P10 : Vec Ideal S1x2048 .f32) (P11 : Vec Ideal S2048x1024 .bf16)
    (P12 : Vec Ideal S1x1024 .f32) (P13 : Vec Ideal S1024x1024 .bf16) (P14 : Vec Ideal S1x1024 .f32)
    (P15 : Vec Ideal S1024x2048 .bf16) (P16 : Vec Ideal S1x2048 .f32) (p : Fin 256) :
    row (k0_pay1 (F := Ideal) (k0_pay5 (k0_pay3 P0 P1 P2 P3 P4 P5 P6 P7) P8 P9 P10 P11 P12 P13 P14) P15 P16) p
      = (decOf P9 P10 P11 P12 P13 P14 P15 P16).xbar ((encOf P1 P2 P3 P4 P5 P6 P7 P8).z (row P0 p)) := by
  unfold k0_pay1 k0_pay5
  rw [row_matmul_bias dot_S256x1024_S1024x2048_S256x2048_1_0_0_1_n_n rfl (by decide), row_relu_trunc,
    row_matmul_bias dot_S256x1024_S1024x1024_S256x1024_1_0_0_1_n_n rfl (by decide), row_relu_trunc,
    row_matmul_bias dot_S256x2048_S2048x1024_S256x1024_1_0_0_1_n_n rfl (by decide), row_relu_trunc,
    row_matmul_bias dot_S256x128_S128x2048_S256x2048_1_0_0_1_n_n rfl (by decide), row_trunc, code_row]
  rfl

/-! ## The affinities -/

/-- A block divided by its row sums — the sums taken over the lanes, kept as a column and copied back along each row —
    read at (p, c): the entry over the sum of its row. -/
theorem div_rowsum_apply {a b : Nat} (S : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (c : Fin b) :
    divf S (broadcastTo ⟨2, ![a, b]⟩ (shapeCast ⟨2, ![a, 1]⟩ (multiReduction .add [1] ⟨1, ![a]⟩ S acc h hφ hacc) h1) h2) (ix2 p c)
      = Ideal.div (S (ix2 p c)) (∑ k : Fin b, S (ix2 p k)) := by
  show Ideal.div (S (ix2 p c))
      (broadcastTo ⟨2, ![a, b]⟩ (shapeCast ⟨2, ![a, 1]⟩ (multiReduction .add [1] ⟨1, ![a]⟩ S acc h hφ hacc) h1) h2 (ix2 p c)) = _
  rw [RowOps.broadcastTo_a1_ab_apply, RowOps.shapeCast_a_a1_apply, RowOps.rowSum_apply]

/-- The code block projected on the 256 cluster columns. -/
def proj (Z : FVec Ideal S256x128 .f32) (Dv : FVec Ideal S128x256 .bf16) : FVec Ideal S256x256 .f32 :=
  matmul dot_S256x128_S128x256_S256x256_1_0_0_1_n_n none (truncf .bf16 Z bitsLt_bf16_f32)
    (shapeCast S128x256 Dv shapeCasts_S128x256_S128x256) (constant S256x256 .f32 0x00000000#32)

/-- The squares summed against the pairing block, shifted by 40 and divided by 48. -/
def scores (Z : FVec Ideal S256x128 .f32) (Dv : FVec Ideal S128x256 .bf16) (Pl : FVec Ideal S256x32 .f32) :
    FVec Ideal S256x32 .f32 :=
  divf (addf (matmul dot_S256x256_S256x32_S256x32_1_0_0_1_n_n (some .fp32) (mulf (proj Z Dv) (proj Z Dv))
        (shapeCast S256x32 Pl shapeCasts_S256x32_S256x32) (constant S256x32 .f32 0x00000000#32))
      (broadcast S256x32 (Scalar.ofBits (F := Ideal) .f32 0x42200000#32)))
    (broadcast S256x32 (Scalar.ofBits (F := Ideal) .f32 0x42400000#32))

/-- Row p of the projection: the code's row times D. -/
theorem proj_row (Z : FVec Ideal S256x128 .f32) (Dv : FVec Ideal S128x256 .bf16) (p : Fin 256) :
    row (proj Z Dv) p = mm (row Z p) (mat Dv) := by
  unfold proj
  rw [row_matmul dot_S256x128_S128x256_S256x256_1_0_0_1_n_n rfl, row_trunc]

/-- Row p of the scores, when the pairing block is the 0/1 pairing matrix: the cluster energies of the projected row. -/
theorem scores_row (Z : FVec Ideal S256x128 .f32) (Dv : FVec Ideal S128x256 .bf16) (Pl : FVec Ideal S256x32 .f32)
    (hPl : ∀ (j : Fin 256) (c : Fin 32), Pl (ix2 j c) = pool j c) (p : Fin 256) (c : Fin 32) :
    scores Z Dv Pl (ix2 p c) = energy (mm (row Z p) (mat Dv)) c := by
  unfold scores
  show Ideal.div (row (matmul dot_S256x256_S256x32_S256x32_1_0_0_1_n_n (some .fp32) (mulf (proj Z Dv) (proj Z Dv))
        (shapeCast S256x32 Pl shapeCasts_S256x32_S256x32) (constant (F := Ideal) S256x32 .f32 0x00000000#32)) p c
      + Ideal.ofBits .f32 0x42200000#32) (Ideal.ofBits .f32 0x42400000#32) = _
  rw [row_matmul dot_S256x256_S256x32_S256x32_1_0_0_1_n_n rfl]
  show Ideal.div ((∑ j : Fin 256, mulf (proj Z Dv) (proj Z Dv) (ix2 p j) * Pl (ix2 j c))
      + Ideal.ofBits .f32 0x42200000#32) (Ideal.ofBits .f32 0x42400000#32) = _
  have e : (∑ j : Fin 256, mulf (proj Z Dv) (proj Z Dv) (ix2 p j) * Pl (ix2 j c))
      = ∑ j : Fin 256, (mm (row Z p) (mat Dv) j * mm (row Z p) (mat Dv) j) * pool j c := by
    refine Finset.sum_congr rfl fun j _ => ?_
    rw [hPl j c, ← proj_row Z Dv p]
    rfl
  rw [e, sum_mul_pool]
  rfl

/-- The stored affinity block, row p: the affinities of the code's row. -/
theorem affinity_row (Z : FVec Ideal S256x128 .f32) (Dv : FVec Ideal S128x256 .bf16) (Pl : FVec Ideal S256x32 .f32)
    (hPl : ∀ (j : Fin 256) (c : Fin 32), Pl (ix2 j c) = pool j c) (p : Fin 256) :
    row (k0_pay2 (F := Ideal) Z Dv Pl) p = affinity (mat Dv) (row Z p) := by
  funext c
  unfold k0_pay2
  refine (div_rowsum_apply _ _ _ _ _ _ _ p c).trans ?_
  show Ideal.div (scores Z Dv Pl (ix2 p c)) (∑ k : Fin 32, scores Z Dv Pl (ix2 p k)) = _
  have e : (∑ k : Fin 32, scores Z Dv Pl (ix2 p k)) = ∑ k : Fin 32, energy (mm (row Z p) (mat Dv)) k :=
    Finset.sum_congr rfl fun k _ => scores_row Z Dv Pl hPl p k
  rw [e, scores_row Z Dv Pl hPl p c]
  rfl

end Cert.KernelIdeal.Rows

end
-- ==== Proof.KernelBlocks.lean ====
/-
  The operands' blocks read as the arguments.

  At grid point t the data window's block is rows 256·t … 256·t + 255 of the data; every other operand's block is its
  whole array, the same at every point (its index map is constantly zero). Read through the host's preparation
  (KernelEntry.lean): a weight block is the weight argument, a bias block's one row is the bias argument, the pairing
  block is the 0/1 pairing matrix — so the weights the body loads are the weights the reference uses.
-/
import proofs.«168007_j9921374454086_2_alg».proof.Proof.KernelEntry
import proofs.«168007_j9921374454086_2_alg».proof.Proof.KernelRows
import proofs.«168007_j9921374454086_2_alg».proof.Proof.LibRowVector

noncomputable section

namespace Cert.KernelIdeal.Blocks

open Cert.KernelIdeal Cert.KernelIdeal.Gen Idealize.ShloMosaic Idealize.ShloMosaic.TcCoe Idealize.SL.Sem
open Idealize.ShloMosaic.ValueIdx Cert.DenseRows Cert.Net

variable (m : (ℓ : Loc nD τ sig) → Buf (Elt Ideal) ℓ)

/-! ## The index maps, decided over the 64 grid points -/

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![t.val, 0] := (by decide +kernel : ∀ t : Fin grid0.N, _)
theorem idx_20 : ∀ t : Fin cfg0.N, win0_20.index t = ![t.val, 0] := (by decide +kernel : ∀ t : Fin grid0.N, _)
theorem idx_21 : ∀ t : Fin cfg0.N, win0_21.index t = ![t.val, 0] := (by decide +kernel : ∀ t : Fin grid0.N, _)

/-- Row p of block t is row 256·t + p of the array. -/
def rowAt (t : Fin cfg0.N) (p : Fin 256) : Fin 16384 :=
  ⟨t.val * 256 + p.val, by have := t.isLt; have hN : cfg0.N = 64 := N_0; have := p.isLt; omega⟩

/-! ## The data block -/

/-- Entry (p, k) of the data block at point t sits at (256·t + p, k) of the data. -/
theorem emb_0 (t : Fin cfg0.N) (p : Fin 256) (k : Fin 2048) :
    ((cfg0.win 0).blk t).view.emb (ix2 p k) = ix2 (rowAt t p) k := by
  funext a
  apply Fin.ext
  match a with
  | ⟨0, _⟩ =>
    show win0_0.index t (0 : Fin 2) * 256 + 1 * p.val = t.val * 256 + p.val
    rw [idx_0 t]; show t.val * 256 + 1 * p.val = _; omega
  | ⟨1, _⟩ =>
    show win0_0.index t (1 : Fin 2) * 2048 + 1 * k.val = k.val
    rw [idx_0 t]; show 0 * 2048 + 1 * k.val = _; omega

/-- Row p of the data block at point t is row 256·t + p of the data argument. -/
theorem x_row (c : Dev nD) (t : Fin cfg0.N) (p : Fin 256) :
    row (iblk m c 0 t : S256x2048.Idx → EReal) p
      = row (m ((c : Thread nD τ).loc main_arg0) : S16384x2048.Idx → EReal) (rowAt t p) := by
  funext k
  show V m c main_v0 (((cfg0.win 0).blk t).view.emb (ix2 p k)) = _
  rw [emb_0 t p k, Entry.entry_v0]
  rfl

/-! ## The whole-array blocks -/

theorem blk_1 (c : Dev nD) (t : Fin cfg0.N) : (iblk m c 1 t : S2048x1024.Idx → EReal) = m ((c : Thread nD τ).loc main_arg1) := by
  have hz : (fun a => win0_1.index t a * main_v1.ty.shape.size a) = fun _ => 0 :=
    funext fun a => by rw [idx_1 t]; fin_cases a <;> rfl
  exact (Memref.read_access_unit_zero (Elt Ideal) main_v1 hz (fun a => by rw [congrFun hz a]; simp) (V m c main_v1)).trans (Entry.entry_v1 m c)
theorem blk_2 (c : Dev nD) (t : Fin cfg0.N) : (iblk m c 2 t : S1x1024.Idx → EReal) = shapeCast S1x1024 (m ((c : Thread nD τ).loc main_arg2) : S1024.Idx → EReal) shapeCasts_S1024_S1x1024 := by
  have hz : (fun a => win0_2.index t a * main_v10.ty.shape.size a) = fun _ => 0 :=
    funext fun a => by rw [idx_2 t]; fin_cases a <;> rfl
  exact (Memref.read_access_unit_zero (Elt Ideal) main_v10 hz (fun a => by rw [congrFun hz a]; simp) (V m c main_v10)).trans (Entry.entry_v10 m c)
theorem blk_3 (c : Dev nD) (t : Fin cfg0.N) : (iblk m c 3 t : S1024x1024.Idx → EReal) = m ((c : Thread nD τ).loc main_arg3) := by
  have hz : (fun a => win0_3.index t a * main_v2.ty.shape.size a) = fun _ => 0 :=
    funext fun a => by rw [idx_3 t]; fin_cases a <;> rfl
  exact (Memref.read_access_unit_zero (Elt Ideal) main_v2 hz (fun a => by rw [congrFun hz a]; simp) (V m c main_v2)).trans (Entry.entry_v2 m c)
theorem blk_4 (c : Dev nD) (t : Fin cfg0.N) : (iblk m c 4 t : S1x1024.Idx → EReal) = shapeCast S1x1024 (m ((c : Thread nD τ).loc main_arg4) : S1024.Idx → EReal) shapeCasts_S1024_S1x1024 := by
  have hz : (fun a => win0_4.index t a * main_v11.ty.shape.size a) = fun _ => 0 :=
    funext fun a => by rw [idx_4 t]; fin_cases a <;> rfl
  exact (Memref.read_access_unit_zero (Elt Ideal) main_v11 hz (fun a => by rw [congrFun hz a]; simp) (V m c main_v11)).trans (Entry.entry_v11 m c)
theorem blk_5 (c : Dev nD) (t : Fin cfg0.N) : (iblk m c 5 t : S1024x2048.Idx → EReal) = m ((c : Thread nD τ).loc main_arg5) := by
  have hz : (fun a => win0_5.index t a * main_v3.ty.shape.size a) = fun _ => 0 :=
    funext fun a => by rw [idx_5 t]; fin_cases a <;> rfl
  exact (Memref.read_access_unit_zero (Elt Ideal) main_v3 hz (fun a => by rw [congrFun hz a]; simp) (V m c main_v3)).trans (Entry.entry_v3 m c)
theorem blk_6 (c : Dev nD) (t : Fin cfg0.N) : (iblk m c 6 t : S1x2048.Idx → EReal) = shapeCast S1x2048 (m ((c : Thread nD τ).loc main_arg6) : S2048.Idx → EReal) shapeCasts_S2048_S1x2048 := by
  have hz : (fun a => win0_6.index t a * main_v12.ty.shape.size a) = fun _ => 0 :=
    funext fun a => by rw [idx_6 t]; fin_cases a <;> rfl
  exact (Memref.read_access_unit_zero (Elt Ideal) main_v12 hz (fun a => by rw [congrFun hz a]; simp) (V m c main_v12)).trans (Entry.entry_v12 m c)
theorem blk_7 (c : Dev nD) (t : Fin cfg0.N) : (iblk m c 7 t : S2048x128.Idx → EReal) = m ((c : Thread nD τ).loc main_arg7) := by
  have hz : (fun a => win0_7.index t a * main_v4.ty.shape.size a) = fun _ => 0 :=
    funext fun a => by rw [idx_7 t]; fin_cases a <;> rfl
  exact (Memref.read_access_unit_zero (Elt Ideal) main_v4 hz (fun a => by rw [congrFun hz a]; simp) (V m c main_v4)).trans (Entry.entry_v4 m c)
theorem blk_8 (c : Dev nD) (t : Fin cfg0.N) : (iblk m c 8 t : S1x128.Idx → EReal) = shapeCast S1x128 (m ((c : Thread nD τ).loc main_arg8) : S128.Idx → EReal) shapeCasts_S128_S1x128 := by
  have hz : (fun a => win0_8.index t a * main_v13.ty.shape.size a) = fun _ => 0 :=
    funext fun a => by rw [idx_8 t]; fin_cases a <;> rfl
  exact (Memref.read_access_unit_zero (Elt Ideal) main_v13 hz (fun a => by rw [congrFun hz a]; simp) (V m c main_v13)).trans (Entry.entry_v13 m c)
theorem blk_9 (c : Dev nD) (t : Fin cfg0.N) : (iblk m c 9 t : S128x2048.Idx → EReal) = m ((c : Thread nD τ).loc main_arg9) := by
  have hz : (fun a => win0_9.index t a * main_v5.ty.shape.size a) = fun _ => 0 :=
    funext fun a => by rw [idx_9 t]; fin_cases a <;> rfl
  exact (Memref.read_access_unit_zero (Elt Ideal) main_v5 hz (fun a => by rw [congrFun hz a]; simp) (V m c main_v5)).trans (Entry.entry_v5 m c)
theorem blk_10 (c : Dev nD) (t : Fin cfg0.N) : (iblk m c 10 t : S1x2048.Idx → EReal) = shapeCast S1x2048 (m ((c : Thread nD τ).loc main_arg10) : S2048.Idx → EReal) shapeCasts_S2048_S1x2048 := by
  have hz : (fun a => win0_10.index t a * main_v14.ty.shape.size a) = fun _ => 0 :=
    funext fun a => by rw [idx_10 t]; fin_cases a <;> rfl
  exact (Memref.read_access_unit_zero (Elt Ideal) main_v14 hz (fun a => by rw [congrFun hz a]; simp) (V m c main_v14)).trans (Entry.entry_v14 m c)
theorem blk_11 (c : Dev nD) (t : Fin cfg0.N) : (iblk m c 11 t : S2048x1024.Idx → EReal) = m ((c : Thread nD τ).loc main_arg11) := by
  have hz : (fun a => win0_11.index t a * main_v6.ty.shape.size a) = fun _ => 0 :=
    funext fun a => by rw [idx_11 t]; fin_cases a <;> rfl
  exact (Memref.read_access_unit_zero (Elt Ideal) main_v6 hz (fun a => by rw [congrFun hz a]; simp) (V m c main_v6)).trans (Entry.entry_v6 m c)
theorem blk_12 (c : Dev nD) (t : Fin cfg0.N) : (iblk m c 12 t : S1x1024.Idx → EReal) = shapeCast S1x1024 (m ((c : Thread nD τ).loc main_arg12) : S1024.Idx → EReal) shapeCasts_S1024_S1x1024 := by
  have hz : (fun a => win0_12.index t a * main_v15.ty.shape.size a) = fun _ => 0 :=
    funext fun a => by rw [idx_12 t]; fin_cases a <;> rfl
  exact (Memref.read_access_unit_zero (Elt Ideal) main_v15 hz (fun a => by rw [congrFun hz a]; simp) (V m c main_v15)).trans (Entry.entry_v15 m c)
theorem blk_13 (c : Dev nD) (t : Fin cfg0.N) : (iblk m c 13 t : S1024x1024.Idx → EReal) = m ((c : Thread nD τ).loc main_arg13) := by
  have hz : (fun a => win0_13.index t a * main_v7.ty.shape.size a) = fun _ => 0 :=
    funext fun a => by rw [idx_13 t]; fin_cases a <;> rfl
  exact (Memref.read_access_unit_zero (Elt Ideal) main_v7 hz (fun a => by rw [congrFun hz a]; simp) (V m c main_v7)).trans (Entry.entry_v7 m c)
theorem blk_14 (c : Dev nD) (t : Fin cfg0.N) : (iblk m c 14 t : S1x1024.Idx → EReal) = shapeCast S1x1024 (m ((c : Thread nD τ).loc main_arg14) : S1024.Idx → EReal) shapeCasts_S1024_S1x1024 := by
  have hz : (fun a => win0_14.index t a * main_v16.ty.shape.size a) = fun _ => 0 :=
    funext fun a => by rw [idx_14 t]; fin_cases a <;> rfl
  exact (Memref.read_access_unit_zero (Elt Ideal) main_v16 hz (fun a => by rw [congrFun hz a]; simp) (V m c main_v16)).trans (Entry.entry_v16 m c)
theorem blk_15 (c : Dev nD) (t : Fin cfg0.N) : (iblk m c 15 t : S1024x2048.Idx → EReal) = m ((c : Thread nD τ).loc main_arg15) := by
  have hz : (fun a => win0_15.index t a * main_v8.ty.shape.size a) = fun _ => 0 :=
    funext fun a => by rw [idx_15 t]; fin_cases a <;> rfl
  exact (Memref.read_access_unit_zero (Elt Ideal) main_v8 hz (fun a => by rw [congrFun hz a]; simp) (V m c main_v8)).trans (Entry.entry_v8 m c)
theorem blk_16 (c : Dev nD) (t : Fin cfg0.N) : (iblk m c 16 t : S1x2048.Idx → EReal) = shapeCast S1x2048 (m ((c : Thread nD τ).loc main_arg16) : S2048.Idx → EReal) shapeCasts_S2048_S1x2048 := by
  have hz : (fun a => win0_16.index t a * main_v17.ty.shape.size a) = fun _ => 0 :=
    funext fun a => by rw [idx_16 t]; fin_cases a <;> rfl
  exact (Memref.read_access_unit_zero (Elt Ideal) main_v17 hz (fun a => by rw [congrFun hz a]; simp) (V m c main_v17)).trans (Entry.entry_v17 m c)
theorem blk_17 (c : Dev nD) (t : Fin cfg0.N) : (iblk m c 17 t : S128x256.Idx → EReal) = m ((c : Thread nD τ).loc main_arg17) := by
  have hz : (fun a => win0_17.index t a * main_v9.ty.shape.size a) = fun _ => 0 :=
    funext fun a => by rw [idx_17 t]; fin_cases a <;> rfl
  exact (Memref.read_access_unit_zero (Elt Ideal) main_v9 hz (fun a => by rw [congrFun hz a]; simp) (V m c main_v9)).trans (Entry.entry_v9 m c)
theorem blk_18 (c : Dev nD) (t : Fin cfg0.N) : (iblk m c 18 t : S256x32.Idx → EReal) = (V m c main_v26 : S256x32.Idx → EReal) := by
  have hz : (fun a => win0_18.index t a * main_v26.ty.shape.size a) = fun _ => 0 :=
    funext fun a => by rw [idx_18 t]; fin_cases a <;> rfl
  exact (Memref.read_access_unit_zero (Elt Ideal) main_v26 hz (fun a => by rw [congrFun hz a]; simp) (V m c main_v26))

/-! ## A bias block's one row is the bias vector -/

theorem bias_2 (c : Dev nD) (t : Fin cfg0.N) :
    row (iblk m c 2 t : S1x1024.Idx → EReal) 0 = vec (m ((c : Thread nD τ).loc main_arg2) : S1024.Idx → EReal) := by
  rw [blk_2 m c t]
  exact funext fun k => RowVector.shapeCast_row _ shapeCasts_S1024_S1x1024 k
theorem bias_4 (c : Dev nD) (t : Fin cfg0.N) :
    row (iblk m c 4 t : S1x1024.Idx → EReal) 0 = vec (m ((c : Thread nD τ).loc main_arg4) : S1024.Idx → EReal) := by
  rw [blk_4 m c t]
  exact funext fun k => RowVector.shapeCast_row _ shapeCasts_S1024_S1x1024 k
theorem bias_6 (c : Dev nD) (t : Fin cfg0.N) :
    row (iblk m c 6 t : S1x2048.Idx → EReal) 0 = vec (m ((c : Thread nD τ).loc main_arg6) : S2048.Idx → EReal) := by
  rw [blk_6 m c t]
  exact funext fun k => RowVector.shapeCast_row _ shapeCasts_S2048_S1x2048 k
theorem bias_8 (c : Dev nD) (t : Fin cfg0.N) :
    row (iblk m c 8 t : S1x128.Idx → EReal) 0 = vec (m ((c : Thread nD τ).loc main_arg8) : S128.Idx → EReal) := by
  rw [blk_8 m c t]
  exact funext fun k => RowVector.shapeCast_row _ shapeCasts_S128_S1x128 k
theorem bias_10 (c : Dev nD) (t : Fin cfg0.N) :
    row (iblk m c 10 t : S1x2048.Idx → EReal) 0 = vec (m ((c : Thread nD τ).loc main_arg10) : S2048.Idx → EReal) := by
  rw [blk_10 m c t]
  exact funext fun k => RowVector.shapeCast_row _ shapeCasts_S2048_S1x2048 k
theorem bias_12 (c : Dev nD) (t : Fin cfg0.N) :
    row (iblk m c 12 t : S1x1024.Idx → EReal) 0 = vec (m ((c : Thread nD τ).loc main_arg12) : S1024.Idx → EReal) := by
  rw [blk_12 m c t]
  exact funext fun k => RowVector.shapeCast_row _ shapeCasts_S1024_S1x1024 k
theorem bias_14 (c : Dev nD) (t : Fin cfg0.N) :
    row (iblk m c 14 t : S1x1024.Idx → EReal) 0 = vec (m ((c : Thread nD τ).loc main_arg14) : S1024.Idx → EReal) := by
  rw [blk_14 m c t]
  exact funext fun k => RowVector.shapeCast_row _ shapeCasts_S1024_S1x1024 k
theorem bias_16 (c : Dev nD) (t : Fin cfg0.N) :
    row (iblk m c 16 t : S1x2048.Idx → EReal) 0 = vec (m ((c : Thread nD τ).loc main_arg16) : S2048.Idx → EReal) := by
  rw [blk_16 m c t]
  exact funext fun k => RowVector.shapeCast_row _ shapeCasts_S2048_S1x2048 k

/-- The pairing block is the 0/1 pairing matrix. -/
theorem pool_blk (c : Dev nD) (t : Fin cfg0.N) (j : Fin 256) (k : Fin 32) :
    (iblk m c 18 t : S256x32.Idx → EReal) (ix2 j k) = pool j k := by
  rw [blk_18 m c t]
  exact Entry.entry_v26_apply m c j k

/-! ## The weights the body loads are the arguments -/

/-- The encoder's weights as loaded at any point are the encoder's arguments. -/
theorem enc_blocks (c : Dev nD) (t : Fin cfg0.N) :
    Rows.encOf (iblk m c 1 t) (iblk m c 2 t) (iblk m c 3 t) (iblk m c 4 t) (iblk m c 5 t) (iblk m c 6 t) (iblk m c 7 t)
        (iblk m c 8 t)
      = encOfArrays (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) :=
  Enc.congr (congrArg mat (blk_1 m c t)) (bias_2 m c t) (congrArg mat (blk_3 m c t)) (bias_4 m c t)
    (congrArg mat (blk_5 m c t)) (bias_6 m c t) (congrArg mat (blk_7 m c t)) (bias_8 m c t)

/-- The decoder's weights as loaded at any point are the decoder's arguments. -/
theorem dec_blocks (c : Dev nD) (t : Fin cfg0.N) :
    Rows.decOf (iblk m c 9 t) (iblk m c 10 t) (iblk m c 11 t) (iblk m c 12 t) (iblk m c 13 t) (iblk m c 14 t)
        (iblk m c 15 t) (iblk m c 16 t)
      = decOfArrays (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16)) :=
  Dec.congr (congrArg mat (blk_9 m c t)) (bias_10 m c t) (congrArg mat (blk_11 m c t)) (bias_12 m c t)
    (congrArg mat (blk_13 m c t)) (bias_14 m c t) (congrArg mat (blk_15 m c t)) (bias_16 m c t)

/-- The cluster matrix as loaded at any point is its argument. -/
theorem D_block (c : Dev nD) (t : Fin cfg0.N) :
    mat (iblk m c 17 t : S128x256.Idx → EReal) = mat (m ((c : Thread nD τ).loc main_arg17) : S128x256.Idx → EReal) :=
  congrArg mat (blk_17 m c t)

end Cert.KernelIdeal.Blocks

end
-- ==== Proof.KernelValue.lean ====
/-
  From blocks to arrays: the kernel's three result arrays as whole-array functions of the arguments.

  Grid point t writes back, for each result, the block of rows 256·t … 256·t + 255: row p of it is the row-level network
  (Net.lean) applied to row 256·t + p of the data, with the arguments as weights (KernelRows.lean for the body,
  KernelBlocks.lean for the operands). That is block t of one whole-array function; the 64 blocks cover the 16384 rows
  (row r lies in block r / 256), so after the run each result array is that function.
-/
import proofs.«168007_j9921374454086_2_alg».proof.Proof.Gen.KernelIdeal.Value
import proofs.«168007_j9921374454086_2_alg».proof.Proof.KernelBlocks

noncomputable section

namespace Cert.KernelIdeal.Whole

open Cert.KernelIdeal Cert.KernelIdeal.Gen Idealize.ShloMosaic Idealize.ShloMosaic.TcCoe Idealize.SL.Sem
open Idealize.ShloMosaic.ValueIdx Cert.DenseRows Cert.Net Cert.KernelIdeal.Blocks
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Output window 19 -/

/-- Entry (p, q) of the block at point t sits at (256·t + p, q) of the array. -/
theorem emb_19 (t : Fin cfg0.N) (p : Fin 256) (q : Fin 2048) :
    ((cfg0.win 19).blk t).view.emb (ix2 p q) = ix2 (rowAt t p) q := by
  funext a
  apply Fin.ext
  match a with
  | ⟨0, _⟩ =>
    show win0_19.index t (0 : Fin 2) * 256 + 1 * p.val = t.val * 256 + p.val
    rw [idx_19 t]; show t.val * 256 + 1 * p.val = _; omega
  | ⟨1, _⟩ =>
    show win0_19.index t (1 : Fin 2) * 2048 + 1 * q.val = q.val
    rw [idx_19 t]; show 0 * 2048 + 1 * q.val = _; omega

/-- What point t writes back is block t of the whole-array function. -/
theorem flushed19_eq (c : Dev nD) (t : Fin cfg0.N) :
    (dats m 0 c).flushed 19 t = ((cfg0.win 19).blk t).view.read (Elt Ideal) (reconArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (decOfArrays (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) := by
  rw [Value.flushed19]
  unfold out0_19
  rw [View.canon_unit_zero hz]
  simp only [View.ld_unit_zero (S := S256x2048) hz,
    View.ld_unit_zero (S := S2048x1024) hz,
    View.ld_unit_zero (S := S1x1024) hz,
    View.ld_unit_zero (S := S1024x1024) hz,
    View.ld_unit_zero (S := S1024x2048) hz,
    View.ld_unit_zero (S := S1x2048) hz,
    View.ld_unit_zero (S := S2048x128) hz,
    View.ld_unit_zero (S := S1x128) hz,
    View.ld_unit_zero (S := S128x2048) hz,
    View.ld_unit_zero (S := S128x256) hz,
    View.ld_unit_zero (S := S256x32) hz]
  funext j
  obtain ⟨p, q, rfl⟩ : ∃ (p : Fin 256) (q : Fin 2048), j = ix2 p q := ⟨j 0, j 1, eq_ix2 j⟩
  show (k0_pay1 (k0_pay5 (k0_pay3 (iblk m c 0 t) (iblk m c 1 t) (iblk m c 2 t) (iblk m c 3 t) (iblk m c 4 t) (iblk m c 5 t) (iblk m c 6 t) (iblk m c 7 t)) (iblk m c 8 t) (iblk m c 9 t) (iblk m c 10 t) (iblk m c 11 t) (iblk m c 12 t) (iblk m c 13 t) (iblk m c 14 t)) (iblk m c 15 t) (iblk m c 16 t)) (ix2 p q)
      = (reconArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (decOfArrays (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (((cfg0.win 19).blk t).view.emb (ix2 p q))
  rw [emb_19 t p q]
  refine (congrFun (Rows.recon_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p) q).trans ?_
  rw [dec_blocks m c t, enc_blocks m c t, x_row m c t p]
  rfl

/-- An index of the array is in point t's block iff each coordinate is in the block's range on its axis. -/
theorem mem_blk19 (t : Fin cfg0.N) (i : S16384x2048.Idx) :
    i ∈ ((cfg0.win 19).blk t).view.set ↔ ∀ a : Fin 2, win0_19.index t a * S256x2048.size a ≤ (i a).val
      ∧ (i a).val < win0_19.index t a * S256x2048.size a + S256x2048.size a := by
  show i ∈ ((View.whole main_v27_0).slice (win0_19.rect t)).set ↔ _
  rw [View.set_slice_whole, Rect.mem_set_unit]
  exact Iff.rfl

/-- Every index is in some point's block: row r in block r / 256. -/
theorem cover19 (i : S16384x2048.Idx) :
    ∃ t : Fin cfg0.N, (cfg0.win 19).flush t = true ∧ i ∈ ((cfg0.win 19).blk t).view.set := by
  have hi0 : (i 0).val < 16384 := (i 0).isLt
  have hi1 : (i 1).val < 2048 := (i 1).isLt
  have hN : cfg0.N = 64 := N_0
  obtain ⟨t, ht⟩ : ∃ t : Fin cfg0.N, t.val = (i 0).val / 256 := ⟨⟨(i 0).val / 256, by omega⟩, rfl⟩
  refine ⟨t, flush0_19 t, ?_⟩
  rw [mem_blk19]
  intro a
  match a with
  | ⟨0, _⟩ =>
    show win0_19.index t (0 : Fin 2) * 256 ≤ (i 0).val ∧ (i 0).val < win0_19.index t (0 : Fin 2) * 256 + 256
    rw [idx_19 t]
    show t.val * 256 ≤ (i 0).val ∧ (i 0).val < t.val * 256 + 256
    omega
  | ⟨1, _⟩ =>
    show win0_19.index t (1 : Fin 2) * 2048 ≤ (i 1).val ∧ (i 1).val < win0_19.index t (1 : Fin 2) * 2048 + 2048
    rw [idx_19 t]
    show 0 * 2048 ≤ (i 1).val ∧ (i 1).val < 0 * 2048 + 2048
    omega

/-- The array after the run is the whole-array function of the arguments. -/
theorem final19 (c : Dev nD) : (dats m 0 c).arrAt 19 cfg0.N = (reconArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (decOfArrays (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) :=
  (dats m 0 c).arrAt_eq_of_cover 19 (reconArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (decOfArrays (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (fun t _ => flushed19_eq m c t) cover19

/-! ## Output window 20 -/

/-- Entry (p, q) of the block at point t sits at (256·t + p, q) of the array. -/
theorem emb_20 (t : Fin cfg0.N) (p : Fin 256) (q : Fin 32) :
    ((cfg0.win 20).blk t).view.emb (ix2 p q) = ix2 (rowAt t p) q := by
  funext a
  apply Fin.ext
  match a with
  | ⟨0, _⟩ =>
    show win0_20.index t (0 : Fin 2) * 256 + 1 * p.val = t.val * 256 + p.val
    rw [idx_20 t]; show t.val * 256 + 1 * p.val = _; omega
  | ⟨1, _⟩ =>
    show win0_20.index t (1 : Fin 2) * 32 + 1 * q.val = q.val
    rw [idx_20 t]; show 0 * 32 + 1 * q.val = _; omega

/-- What point t writes back is block t of the whole-array function. -/
theorem flushed20_eq (c : Dev nD) (t : Fin cfg0.N) :
    (dats m 0 c).flushed 20 t = ((cfg0.win 20).blk t).view.read (Elt Ideal) (affArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg17))) := by
  rw [Value.flushed20]
  unfold out0_20
  rw [View.canon_unit_zero hz]
  simp only [View.ld_unit_zero (S := S256x2048) hz,
    View.ld_unit_zero (S := S2048x1024) hz,
    View.ld_unit_zero (S := S1x1024) hz,
    View.ld_unit_zero (S := S1024x1024) hz,
    View.ld_unit_zero (S := S1024x2048) hz,
    View.ld_unit_zero (S := S1x2048) hz,
    View.ld_unit_zero (S := S2048x128) hz,
    View.ld_unit_zero (S := S1x128) hz,
    View.ld_unit_zero (S := S128x2048) hz,
    View.ld_unit_zero (S := S128x256) hz,
    View.ld_unit_zero (S := S256x32) hz]
  funext j
  obtain ⟨p, q, rfl⟩ : ∃ (p : Fin 256) (q : Fin 32), j = ix2 p q := ⟨j 0, j 1, eq_ix2 j⟩
  show (k0_pay2 (k0_pay4 (k0_pay3 (iblk m c 0 t) (iblk m c 1 t) (iblk m c 2 t) (iblk m c 3 t) (iblk m c 4 t) (iblk m c 5 t) (iblk m c 6 t) (iblk m c 7 t)) (iblk m c 8 t)) (iblk m c 17 t) (iblk m c 18 t)) (ix2 p q)
      = (affArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg17))) (((cfg0.win 20).blk t).view.emb (ix2 p q))
  rw [emb_20 t p q]
  refine (congrFun ((Rows.affinity_row (k0_pay4 (k0_pay3 (iblk m c 0 t) (iblk m c 1 t) (iblk m c 2 t) (iblk m c 3 t) (iblk m c 4 t) (iblk m c 5 t) (iblk m c 6 t) (iblk m c 7 t)) (iblk m c 8 t)) (iblk m c 17 t) (iblk m c 18 t) (pool_blk m c t) p).trans
      (congrArg (affinity (mat (iblk m c 17 t))) (Rows.code_row (iblk m c 0 t) (iblk m c 1 t) (iblk m c 2 t) (iblk m c 3 t) (iblk m c 4 t) (iblk m c 5 t) (iblk m c 6 t) (iblk m c 7 t) (iblk m c 8 t) p))) q).trans ?_
  rw [D_block m c t, enc_blocks m c t, x_row m c t p]
  rfl

/-- An index of the array is in point t's block iff each coordinate is in the block's range on its axis. -/
theorem mem_blk20 (t : Fin cfg0.N) (i : S16384x32.Idx) :
    i ∈ ((cfg0.win 20).blk t).view.set ↔ ∀ a : Fin 2, win0_20.index t a * S256x32.size a ≤ (i a).val
      ∧ (i a).val < win0_20.index t a * S256x32.size a + S256x32.size a := by
  show i ∈ ((View.whole main_v27_1).slice (win0_20.rect t)).set ↔ _
  rw [View.set_slice_whole, Rect.mem_set_unit]
  exact Iff.rfl

/-- Every index is in some point's block: row r in block r / 256. -/
theorem cover20 (i : S16384x32.Idx) :
    ∃ t : Fin cfg0.N, (cfg0.win 20).flush t = true ∧ i ∈ ((cfg0.win 20).blk t).view.set := by
  have hi0 : (i 0).val < 16384 := (i 0).isLt
  have hi1 : (i 1).val < 32 := (i 1).isLt
  have hN : cfg0.N = 64 := N_0
  obtain ⟨t, ht⟩ : ∃ t : Fin cfg0.N, t.val = (i 0).val / 256 := ⟨⟨(i 0).val / 256, by omega⟩, rfl⟩
  refine ⟨t, flush0_20 t, ?_⟩
  rw [mem_blk20]
  intro a
  match a with
  | ⟨0, _⟩ =>
    show win0_20.index t (0 : Fin 2) * 256 ≤ (i 0).val ∧ (i 0).val < win0_20.index t (0 : Fin 2) * 256 + 256
    rw [idx_20 t]
    show t.val * 256 ≤ (i 0).val ∧ (i 0).val < t.val * 256 + 256
    omega
  | ⟨1, _⟩ =>
    show win0_20.index t (1 : Fin 2) * 32 ≤ (i 1).val ∧ (i 1).val < win0_20.index t (1 : Fin 2) * 32 + 32
    rw [idx_20 t]
    show 0 * 32 ≤ (i 1).val ∧ (i 1).val < 0 * 32 + 32
    omega

/-- The array after the run is the whole-array function of the arguments. -/
theorem final20 (c : Dev nD) : (dats m 0 c).arrAt 20 cfg0.N = (affArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg17))) :=
  (dats m 0 c).arrAt_eq_of_cover 20 (affArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg17))) (fun t _ => flushed20_eq m c t) cover20

/-! ## Output window 21 -/

/-- Entry (p, q) of the block at point t sits at (256·t + p, q) of the array. -/
theorem emb_21 (t : Fin cfg0.N) (p : Fin 256) (q : Fin 128) :
    ((cfg0.win 21).blk t).view.emb (ix2 p q) = ix2 (rowAt t p) q := by
  funext a
  apply Fin.ext
  match a with
  | ⟨0, _⟩ =>
    show win0_21.index t (0 : Fin 2) * 256 + 1 * p.val = t.val * 256 + p.val
    rw [idx_21 t]; show t.val * 256 + 1 * p.val = _; omega
  | ⟨1, _⟩ =>
    show win0_21.index t (1 : Fin 2) * 128 + 1 * q.val = q.val
    rw [idx_21 t]; show 0 * 128 + 1 * q.val = _; omega

/-- What point t writes back is block t of the whole-array function. -/
theorem flushed21_eq (c : Dev nD) (t : Fin cfg0.N) :
    (dats m 0 c).flushed 21 t = ((cfg0.win 21).blk t).view.read (Elt Ideal) (codeArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) := by
  rw [Value.flushed21]
  unfold out0_21
  rw [View.canon_unit_zero hz]
  simp only [View.ld_unit_zero (S := S256x2048) hz,
    View.ld_unit_zero (S := S2048x1024) hz,
    View.ld_unit_zero (S := S1x1024) hz,
    View.ld_unit_zero (S := S1024x1024) hz,
    View.ld_unit_zero (S := S1024x2048) hz,
    View.ld_unit_zero (S := S1x2048) hz,
    View.ld_unit_zero (S := S2048x128) hz,
    View.ld_unit_zero (S := S1x128) hz,
    View.ld_unit_zero (S := S128x2048) hz,
    View.ld_unit_zero (S := S128x256) hz,
    View.ld_unit_zero (S := S256x32) hz]
  funext j
  obtain ⟨p, q, rfl⟩ : ∃ (p : Fin 256) (q : Fin 128), j = ix2 p q := ⟨j 0, j 1, eq_ix2 j⟩
  show (k0_pay4 (k0_pay3 (iblk m c 0 t) (iblk m c 1 t) (iblk m c 2 t) (iblk m c 3 t) (iblk m c 4 t) (iblk m c 5 t) (iblk m c 6 t) (iblk m c 7 t)) (iblk m c 8 t)) (ix2 p q)
      = (codeArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (((cfg0.win 21).blk t).view.emb (ix2 p q))
  rw [emb_21 t p q]
  refine (congrFun (Rows.code_row (iblk m c 0 t) (iblk m c 1 t) (iblk m c 2 t) (iblk m c 3 t) (iblk m c 4 t) (iblk m c 5 t) (iblk m c 6 t) (iblk m c 7 t) (iblk m c 8 t) p) q).trans ?_
  rw [enc_blocks m c t, x_row m c t p]
  rfl

/-- An index of the array is in point t's block iff each coordinate is in the block's range on its axis. -/
theorem mem_blk21 (t : Fin cfg0.N) (i : S16384x128.Idx) :
    i ∈ ((cfg0.win 21).blk t).view.set ↔ ∀ a : Fin 2, win0_21.index t a * S256x128.size a ≤ (i a).val
      ∧ (i a).val < win0_21.index t a * S256x128.size a + S256x128.size a := by
  show i ∈ ((View.whole main_v27_2).slice (win0_21.rect t)).set ↔ _
  rw [View.set_slice_whole, Rect.mem_set_unit]
  exact Iff.rfl

/-- Every index is in some point's block: row r in block r / 256. -/
theorem cover21 (i : S16384x128.Idx) :
    ∃ t : Fin cfg0.N, (cfg0.win 21).flush t = true ∧ i ∈ ((cfg0.win 21).blk t).view.set := by
  have hi0 : (i 0).val < 16384 := (i 0).isLt
  have hi1 : (i 1).val < 128 := (i 1).isLt
  have hN : cfg0.N = 64 := N_0
  obtain ⟨t, ht⟩ : ∃ t : Fin cfg0.N, t.val = (i 0).val / 256 := ⟨⟨(i 0).val / 256, by omega⟩, rfl⟩
  refine ⟨t, flush0_21 t, ?_⟩
  rw [mem_blk21]
  intro a
  match a with
  | ⟨0, _⟩ =>
    show win0_21.index t (0 : Fin 2) * 256 ≤ (i 0).val ∧ (i 0).val < win0_21.index t (0 : Fin 2) * 256 + 256
    rw [idx_21 t]
    show t.val * 256 ≤ (i 0).val ∧ (i 0).val < t.val * 256 + 256
    omega
  | ⟨1, _⟩ =>
    show win0_21.index t (1 : Fin 2) * 128 ≤ (i 1).val ∧ (i 1).val < win0_21.index t (1 : Fin 2) * 128 + 128
    rw [idx_21 t]
    show 0 * 128 ≤ (i 1).val ∧ (i 1).val < 0 * 128 + 128
    omega

/-- The array after the run is the whole-array function of the arguments. -/
theorem final21 (c : Dev nD) : (dats m 0 c).arrAt 21 cfg0.N = (codeArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (dats m 0 c).arrAt_eq_of_cover 21 (codeArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (fun t _ => flushed21_eq m c t) cover21

/-! ## The run -/

/-- The kernel's run: each result array at its whole-array function of the arguments, the arguments unchanged. -/
theorem run : θ_run defs (onTc (τ := τ) (main (F := Ideal))) ⟨m, fun _ => 0, ρ⟩ fun r => ∀ c : Dev nD,
      r.2.mem ((c : Thread nD τ).loc main_v27_0) = (reconArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (decOfArrays (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))))
      ∧ r.2.mem ((c : Thread nD τ).loc main_v27_1) = (affArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg17)))
      ∧ r.2.mem ((c : Thread nD τ).loc main_v27_2) = (codeArr (m ((c : Thread nD τ).loc main_arg0)) (encOfArrays (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final19 m c), (h c).2.1.trans (final20 m c),
      (h c).2.2.1.trans (final21 m c), (h c).2.2.2⟩)
    (Value.run_blocks m ρ)

end Cert.KernelIdeal.Whole

end
-- ==== Proof.RefRows.lean ====
/-
  The reference, one row at a time.

  Each of the reference's three results is computed from the data matrix row by row. Row r of the code, of the
  reconstruction and of the affinities is read here as the row-level network of Net.lean applied to row r of the data
  matrix, the weights being the argument arrays themselves: a weight matrix as it is, a bias vector by its coordinate.
  The affinities go through a reshape of the 256 projected columns to 32 clusters of 8: cluster c, entry d is column
  8c + d.
-/
import proofs.«168007_j9921374454086_2_alg».proof.Proof.Gen.ReferenceIdeal.Read
import proofs.«168007_j9921374454086_2_alg».proof.Proof.Net

noncomputable section

open scoped BigOperators

namespace Cert.ReferenceIdeal.Rows

open Cert.ReferenceIdeal Cert.ReferenceIdeal.Gen Cert.ReferenceIdeal.Read Idealize.ShloMosaic Idealize.ShloMosaic.ValueIdx
open Cert.DenseRows Cert.Net

/-- The code, row r: the encoder on row r of the data. -/
theorem code_row (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) (r : Fin 16384) :
    row (val_main_v18 (F := Ideal) x0 x1 x2 x3 x4 x5 x6 x7 x8) r = (encOfArrays x1 x2 x3 x4 x5 x6 x7 x8).z (row x0 r) := by
  rw [← val_main_v18_eq]
  rw [row_dot_bias dot_S16384x2048_S2048x128_S16384x128_1_0_0_1_n_n rfl (by decide), row_relu_host,
    row_dot_bias dot_S16384x1024_S1024x2048_S16384x2048_1_0_0_1_n_n rfl (by decide), row_relu_host,
    row_dot_bias dot_S16384x1024_S1024x1024_S16384x1024_1_0_0_1_n_n rfl (by decide), row_relu_host,
    row_dot_bias dot_S16384x2048_S2048x1024_S16384x1024_1_0_0_1_n_n rfl (by decide)]
  rfl

/-- The reconstruction, row r: the decoder on the code of row r of the data. -/
theorem recon_row (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32)
    (x9 : FVec Ideal S128x2048 .f32) (x10 : FVec Ideal S2048 .f32) (x11 : FVec Ideal S2048x1024 .f32)
    (x12 : FVec Ideal S1024 .f32) (x13 : FVec Ideal S1024x1024 .f32) (x14 : FVec Ideal S1024 .f32)
    (x15 : FVec Ideal S1024x2048 .f32) (x16 : FVec Ideal S2048 .f32) (r : Fin 16384) :
    row (val_main_v37 (F := Ideal) x0 x1 x2 x3 x4 x5 x6 x7 x8 x9 x10 x11 x12 x13 x14 x15 x16) r
      = (decOfArrays x9 x10 x11 x12 x13 x14 x15 x16).xbar ((encOfArrays x1 x2 x3 x4 x5 x6 x7 x8).z (row x0 r)) := by
  rw [← val_main_v37_eq]
  rw [row_dot_bias dot_S16384x1024_S1024x2048_S16384x2048_1_0_0_1_n_n rfl (by decide), row_relu_host,
    row_dot_bias dot_S16384x1024_S1024x1024_S16384x1024_1_0_0_1_n_n rfl (by decide), row_relu_host,
    row_dot_bias dot_S16384x2048_S2048x1024_S16384x1024_1_0_0_1_n_n rfl (by decide), row_relu_host,
    row_dot_bias dot_S16384x128_S128x2048_S16384x2048_1_0_0_1_n_n rfl (by decide),
    row_dot_bias dot_S16384x2048_S2048x128_S16384x128_1_0_0_1_n_n rfl (by decide), row_relu_host,
    row_dot_bias dot_S16384x1024_S1024x2048_S16384x2048_1_0_0_1_n_n rfl (by decide), row_relu_host,
    row_dot_bias dot_S16384x1024_S1024x1024_S16384x1024_1_0_0_1_n_n rfl (by decide), row_relu_host,
    row_dot_bias dot_S16384x2048_S2048x1024_S16384x1024_1_0_0_1_n_n rfl (by decide)]
  rfl

/-! ## The affinities -/

/-- Row r of the projection on the 256 cluster columns: the code's row times D. -/
theorem proj_row (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) (x17 : FVec Ideal S128x256 .f32) (r : Fin 16384) :
    row (val_main_v38 (F := Ideal) x0 x1 x2 x3 x4 x5 x6 x7 x8 x17) r = mm ((encOfArrays x1 x2 x3 x4 x5 x6 x7 x8).z (row x0 r)) (mat x17) := by
  unfold val_main_v38
  rw [row_dot dot_S16384x128_S128x256_S16384x256_1_0_0_1_n_n rfl, code_row]

/-- Cluster c, entry d of the reshaped projection is column 8c + d. -/
theorem slot_idx (r : Fin 16384) (c : Fin 32) (d : Fin 8) :
    idx_main_v39 (idx_main_v41 (ix2 r c) d) = ix2 r (slot c d) := by
  funext a
  apply Fin.ext
  have hr := r.isLt
  have hc := c.isLt
  have hd := d.isLt
  match a with
  | ⟨0, _⟩ => show ((r.val * 32 + c.val) * 8 + d.val) / 256 = r.val; omega
  | ⟨1, _⟩ => show ((r.val * 32 + c.val) * 8 + d.val) % 256 = c.val * 8 + d.val; omega

/-- The shifted and scaled cluster energies at (r, c). -/
theorem energy_row (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) (x17 : FVec Ideal S128x256 .f32) (r : Fin 16384) (c : Fin 32) :
    val_main_v45 (F := Ideal) x0 x1 x2 x3 x4 x5 x6 x7 x8 x17 (ix2 r c)
      = energy (mm ((encOfArrays x1 x2 x3 x4 x5 x6 x7 x8).z (row x0 r)) (mat x17)) c := by
  rw [val_main_v45_apply, val_main_v43_apply, val_main_v41_apply, val_main_v42_apply, val_main_v44_apply]
  have e : ∀ d : Fin 8, val_main_v40 (F := Ideal) x0 x1 x2 x3 x4 x5 x6 x7 x8 x17 (idx_main_v41 (ix2 r c) d)
      = mm ((encOfArrays x1 x2 x3 x4 x5 x6 x7 x8).z (row x0 r)) (mat x17) (slot c d)
        * mm ((encOfArrays x1 x2 x3 x4 x5 x6 x7 x8).z (row x0 r)) (mat x17) (slot c d) := by
    intro d
    rw [val_main_v40_apply, val_main_v39_apply, slot_idx, ← proj_row]
    rfl
  rw [Finset.sum_congr rfl fun d _ => e d]
  show Ideal.div ((Ideal.ofBits .f32 0x00000000#32
        + ∑ d : Fin 8, mm ((encOfArrays x1 x2 x3 x4 x5 x6 x7 x8).z (row x0 r)) (mat x17) (slot c d)
            * mm ((encOfArrays x1 x2 x3 x4 x5 x6 x7 x8).z (row x0 r)) (mat x17) (slot c d))
      + Ideal.ofBits .f32 0x42200000#32) (Ideal.ofBits .f32 0x42400000#32) = _
  rw [Ideal.ofBits_zero_f32, zero_add]
  rfl

/-- The affinities, row r: the affinities of the code's row. -/
theorem affinity_row (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) (x17 : FVec Ideal S128x256 .f32) (r : Fin 16384) :
    row (val_main_v49 (F := Ideal) x0 x1 x2 x3 x4 x5 x6 x7 x8 x17) r = affinity (mat x17) ((encOfArrays x1 x2 x3 x4 x5 x6 x7 x8).z (row x0 r)) := by
  funext c
  show val_main_v49 (F := Ideal) x0 x1 x2 x3 x4 x5 x6 x7 x8 x17 (ix2 r c) = _
  rw [val_main_v49_apply, val_main_v48_apply, val_main_v47_apply, val_main_v46_apply]
  have hi : ∀ k : Fin 32, idx_main_v46 (idx_main_v47 (idx_main_v48 (ix2 r c))) k = ix2 r k := fun k =>
    funext fun a => Fin.ext (by match a with | ⟨0, _⟩ => rfl | ⟨1, _⟩ => rfl)
  rw [Finset.sum_congr rfl fun k _ => (congrArg (val_main_v45 (F := Ideal) x0 x1 x2 x3 x4 x5 x6 x7 x8 x17) (hi k)).trans (energy_row x0 x1 x2 x3 x4 x5 x6 x7 x8 x17 r k)]
  rw [energy_row]
  show Ideal.div (energy (mm ((encOfArrays x1 x2 x3 x4 x5 x6 x7 x8).z (row x0 r)) (mat x17)) c)
      (Ideal.ofBits .f32 0x00000000#32 + ∑ k : Fin 32, energy (mm ((encOfArrays x1 x2 x3 x4 x5 x6 x7 x8).z (row x0 r)) (mat x17)) k) = _
  rw [Ideal.ofBits_zero_f32, zero_add]
  rfl

/-! ## The three results as whole arrays -/

/-- The code array is the code of every row. -/
theorem code_eq (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) :
    val_main_v18 (F := Ideal) x0 x1 x2 x3 x4 x5 x6 x7 x8 = codeArr x0 (encOfArrays x1 x2 x3 x4 x5 x6 x7 x8) := by
  funext i
  obtain ⟨r, c, rfl⟩ : ∃ (r : Fin 16384) (c : Fin 128), i = ix2 r c := ⟨i 0, i 1, eq_ix2 i⟩
  exact congrFun (code_row x0 x1 x2 x3 x4 x5 x6 x7 x8 r) c

/-- The reconstruction array is the reconstruction of every row. -/
theorem recon_eq (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32)
    (x9 : FVec Ideal S128x2048 .f32) (x10 : FVec Ideal S2048 .f32) (x11 : FVec Ideal S2048x1024 .f32)
    (x12 : FVec Ideal S1024 .f32) (x13 : FVec Ideal S1024x1024 .f32) (x14 : FVec Ideal S1024 .f32)
    (x15 : FVec Ideal S1024x2048 .f32) (x16 : FVec Ideal S2048 .f32) :
    val_main_v37 (F := Ideal) x0 x1 x2 x3 x4 x5 x6 x7 x8 x9 x10 x11 x12 x13 x14 x15 x16
      = reconArr x0 (encOfArrays x1 x2 x3 x4 x5 x6 x7 x8) (decOfArrays x9 x10 x11 x12 x13 x14 x15 x16) := by
  funext i
  obtain ⟨r, c, rfl⟩ : ∃ (r : Fin 16384) (c : Fin 2048), i = ix2 r c := ⟨i 0, i 1, eq_ix2 i⟩
  exact congrFun (recon_row x0 x1 x2 x3 x4 x5 x6 x7 x8 x9 x10 x11 x12 x13 x14 x15 x16 r) c

/-- The affinity array is the affinities of every row. -/
theorem aff_eq (x0 : FVec Ideal S16384x2048 .f32) (x1 : FVec Ideal S2048x1024 .f32) (x2 : FVec Ideal S1024 .f32)
    (x3 : FVec Ideal S1024x1024 .f32) (x4 : FVec Ideal S1024 .f32) (x5 : FVec Ideal S1024x2048 .f32)
    (x6 : FVec Ideal S2048 .f32) (x7 : FVec Ideal S2048x128 .f32) (x8 : FVec Ideal S128 .f32) (x17 : FVec Ideal S128x256 .f32) :
    val_main_v49 (F := Ideal) x0 x1 x2 x3 x4 x5 x6 x7 x8 x17 = affArr x0 (encOfArrays x1 x2 x3 x4 x5 x6 x7 x8) x17 := by
  funext i
  obtain ⟨r, c, rfl⟩ : ∃ (r : Fin 16384) (c : Fin 32), i = ix2 r c := ⟨i 0, i 1, eq_ix2 i⟩
  exact congrFun (affinity_row x0 x1 x2 x3 x4 x5 x6 x7 x8 x17 r) c

end Cert.ReferenceIdeal.Rows

end
-- ==== Proof.lean ====
/-
  The certificate of the fused autoencoder-with-cluster-affinities kernel against its jnp reference.

  Both programs compute, for every row x of the 16384×2048 data matrix,
    the code            z    = the encoder on x   (three affine layers with relu, then an affine layer),
    the reconstruction  xbar = the decoder on z   (the same shape of network back to 2048 entries),
    the affinities      s    = q / Σ q,  q_c = (Σ_{d<8} (z · D)_{8c+d}² + 40) / 48   for the 32 clusters c.
  The kernel works on blocks of 256 rows with the weights resident, feeds its matrix products reduced-precision copies
  of their operands (the identity at the ideal values), adds each bias as a 1×N row, and takes the eight-entry cluster
  sums as a product with the 0/1 matrix pairing column j with cluster j / 8; the reference works on whole arrays and
  takes the cluster sums after a reshape to 32×8. Over the extended reals the two are the same row-level function
  (Proof/Net.lean); the one law joining them is that a sum against that 0/1 matrix keeps the eight entries of its
  cluster, which holds for every extended real, so the precondition is never opened.

  The three frames: the kernel's two are the generated frames; the reference's is its generated run with the results
  dropped. `preserves` has no conjunct: the idealization rewrote nothing.
  `algebraic`: the kernel's run ends with each result array at its whole-array function of the arguments
  (Proof/KernelValue.lean), the reference's run with each result at the same function (Proof/RefRows.lean) of arguments
  that agree.
-/
import proofs.«168007_j9921374454086_2_alg».proof.Defs
import proofs.«168007_j9921374454086_2_alg».proof.Proof.Gen.Kernel
import proofs.«168007_j9921374454086_2_alg».proof.Proof.Gen.Kernel.Frame
import proofs.«168007_j9921374454086_2_alg».proof.Proof.Gen.KernelIdeal
import proofs.«168007_j9921374454086_2_alg».proof.Proof.Gen.KernelIdeal.Frame
import proofs.«168007_j9921374454086_2_alg».proof.Proof.Gen.KernelIdeal.Value
import proofs.«168007_j9921374454086_2_alg».proof.Proof.Gen.ReferenceIdeal
import proofs.«168007_j9921374454086_2_alg».proof.Proof.Gen.ReferenceIdeal.Run
import proofs.«168007_j9921374454086_2_alg».proof.Proof.Gen.ReferenceIdeal.Read
import proofs.«168007_j9921374454086_2_alg».proof.Proof.Gen.Pre_finite_inputs
import proofs.«168007_j9921374454086_2_alg».proof.Proof.KernelValue
import proofs.«168007_j9921374454086_2_alg».proof.Proof.RefRows
import Idealize.ShloMosaic.Adequacy
import Idealize.ShloMosaic.Init

noncomputable section

namespace Cert.Proof

open Idealize.ShloMosaic Idealize.SL.Sem Cert.Net

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged: the generated run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing: no conjunct. -/
theorem preserves : Cert.preserves_Kernel_KernelIdeal := trivial

/-- Both runs end with the reconstruction, the affinities and the code of every row of the data, as one function of
    arguments that agree. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  have e37 := (h c).1.trans
    ((Cert.ReferenceIdeal.Read.val_main_v37_eq (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))).trans
      (Cert.ReferenceIdeal.Rows.recon_eq
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))))
  have e49 := (h c).2.1.trans
    ((Cert.ReferenceIdeal.Read.val_main_v49_eq (F := Ideal) m' c).trans
      (Cert.ReferenceIdeal.Rows.aff_eq
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg17))))
  have e18 := (h c).2.2.1.trans
    ((Cert.ReferenceIdeal.Read.val_main_v18_eq (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))).trans
      (Cert.ReferenceIdeal.Rows.code_eq
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))))
  rw [a0, a1, a2, a3, a4, a5, a6, a7, a8, a9, a10, a11, a12, a13, a14, a15, a16] at e37
  rw [a0, a1, a2, a3, a4, a5, a6, a7, a8, a17] at e49
  rw [a0, a1, a2, a3, a4, a5, a6, a7, a8] at e18
  exact ⟨e37, e49, e18, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
